-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KRun.lean ====
/-
  The idealized kernel's run with its result named.

  @main of the kernel program is nine segments: three stretches of host operations, the first product region, a
  stretch of host operations, the bias-and-clamp region, the second product region, a stretch of host operations,
  the log-softmax region.  The generated frame module states the buffers' contents at every boundary between
  segments (`W0` … `W9`: a stretch's fold of its operations; a region's arrays at what its write-backs leave)
  and proves that every weakly fair execution ends with every unscoped buffer at `W9`.  Here the same run is read
  at one more buffer: the result array ends at `W9` too, beside the arguments ending as launched.
-/
import proofs.«176543_j81312320848104_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents `W9` and the six argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.Spec.lean ====
/-
  The function both programs compute, written once.

  A two-layer graph convolution on 100000 nodes. The edge list `ei` (two rows of 3200000 node numbers: sources and
  targets) is extended by one self loop per node; `degOf` counts, per node, the edges that end in it (a sum of ones),
  `dinvOf` is `deg ^ (-1/2)` where `deg > 0` and `0` elsewhere, and an edge's weight `normOf` is the product of that
  factor at its two ends. One aggregation step (`aggr16`, `aggr40`) takes a feature matrix, reads for every edge the row of
  the edge's source (a negative node number wrapping round by 100000), scales it by the edge's weight and adds it into
  the row of the edge's target. The network is
      hidden = max (aggregate (x · W1) + b1, 0),      logits = aggregate (hidden · W2) + b2,
      out    = logits − rowmax − log (Σ_j exp (logits_j − rowmax)),
  the last line being the log-softmax along each row, with the row maximum taken against −∞.

  Every definition below is the operations of the reference, spelt as the reference spells them, over an arbitrary
  float instance; the edge chain (`srcOf`, `dstOf`, `normOf`) and the aggregation steps are never opened by the
  proof: both programs apply the very same operations there, and only the values going in have to agree.
-/
import proofs.«176543_j81312320848104_1_alg».proof.ReferenceIdeal

noncomputable section

namespace Cert.Net

open Idealize.ShloMosaic Cert.ReferenceIdeal Cert.ReferenceIdeal.Facts₀

variable {F : FTy → Type} [FloatOps F] [Cert.ReferenceIdeal.Facts]

/-- The source end of every edge: the edge list's first row, then the nodes themselves (the self loops). -/
def srcOf (ei : IVec S2x3200000 32) : IVec S3300000 32 :=
  (concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0)

/-- The target end of every edge: the edge list's second row, then the nodes themselves. -/
def dstOf (ei : IVec S2x3200000 32) : IVec S3300000 32 :=
  (concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0)

/-- A negative node number counts from the end: `s + 100000` where `s < 0`. -/
def wrap (s : IVec S3300000 32) : IVec S3300000 32 :=
  (select (cmpi .slt s (broadcastInDim S3300000 ![] bcast_S_S3300000 (constantI S_ 32 0#32))) (addi s (broadcastInDim S3300000 ![] bcast_S_S3300000 (constantI S_ 32 100000#32))) s)

/-- How many edges end in each node, from the edges' target ends `d`: ones added up at the targets. -/
def degOf (d : IVec S3300000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- `g ^ (-1/2)` where the degree `g` is positive, `0` elsewhere. -/
def dinvOf (g : FVec F S100000 .f32) : FVec F S100000 .f32 :=
  select (cmpf .ogt g (broadcastInDim S100000 ![] bcast_S_S100000 (constant S_ .f32 0x00000000#32))) (Host.rsqrt g) (broadcastInDim S100000 ![] bcast_S_S100000 (id (constant S_ .f32 0x00000000#32)))

/-- An edge's weight from the per-node factors `dv`: the factor at its source times the factor at its target. -/
def normP (s d : IVec S3300000 32) (dv : FVec F S100000 .f32) : FVec F S3300000 .f32 :=
  mulf (Host.gather gather_S100000_S3300000x1_S3300000_n_0_n_n_0_1_1 dv (broadcastInDim S3300000x1 ![0] bcast_S3300000_S3300000x1_0 (wrap s))) (Host.gather gather_S100000_S3300000x1_S3300000_n_0_n_n_0_1_1 dv (broadcastInDim S3300000x1 ![0] bcast_S3300000_S3300000x1_0 (wrap d)))

/-- The edges' weights, from the edge list. -/
def normOf (ei : IVec S2x3200000 32) : FVec F S3300000 .f32 :=
  normP (srcOf ei) (dstOf ei) (dinvOf (degOf (dstOf ei)))

/-- One aggregation step on 16 columns, from the edges' ends `s`, `d` and weights `n`: row `d e` of the result
    collects `n e` times row `s e` of `f`, over all edges `e`. -/
def aggr16 (s d : IVec S3300000 32) (n : FVec F S3300000 .f32) (f : FVec F S100000x16 .f32) : FVec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 f (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 n)))

/-- The same step on 40 columns. -/
def aggr40 (s d : IVec S3300000 32) (n : FVec F S3300000 .f32) (f : FVec F S100000x40 .f32) : FVec F S100000x40 .f32 :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 d) (mulf (Host.gather gather_S100000x40_S3300000x1_S3300000x40_1_0_n_n_0_1_140 f (broadcastInDim S3300000x1 ![0] bcast_S3300000_S3300000x1_0 (wrap s))) (broadcastInDim S3300000x40 ![0, 1] bcast_S3300000x1_S3300000x40_0_1 (broadcastInDim S3300000x1 ![0] bcast_S3300000_S3300000x1_0 n)))

def agg16 (ei : IVec S2x3200000 32) (f : FVec F S100000x16 .f32) : FVec F S100000x16 .f32 :=
  aggr16 (srcOf ei) (dstOf ei) (normOf ei) f

def agg40 (ei : IVec S2x3200000 32) (f : FVec F S100000x40 .f32) : FVec F S100000x40 .f32 :=
  aggr40 (srcOf ei) (dstOf ei) (normOf ei) f

/-- `x · W1`: 100000 × 512 by 512 × 16. -/
def dot1 (x : FVec F S100000x512 .f32) (w1 : FVec F S512x16 .f32) : FVec F S100000x16 .f32 :=
  Host.dotGeneral dot_S100000x512_S512x16_S100000x16_1_0_0_1_n_n none x w1

/-- `h · W2`: 100000 × 16 by 16 × 40. -/
def dot2 (h : FVec F S100000x16 .f32) (w2 : FVec F S16x40 .f32) : FVec F S100000x40 .f32 :=
  Host.dotGeneral dot_S100000x16_S16x40_S100000x40_1_0_0_1_n_n none h w2

/-- `max (a + b, 0)`, the vector `b` repeated down the rows. -/
def biasRelu (a : FVec F S100000x16 .f32) (b : FVec F S16 .f32) : FVec F S100000x16 .f32 :=
  maximumf (addf a (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- `a + b`, the vector `b` repeated down the rows. -/
def biasAdd (a : FVec F S100000x40 .f32) (b : FVec F S40 .f32) : FVec F S100000x40 .f32 :=
  addf a (broadcastInDim S100000x40 ![0, 1] bcast_S1x40_S100000x40_0_1 (broadcastInDim S1x40 ![1] bcast_S40_S1x40_1 b))

/-- The log-softmax along each row of 40 entries. -/
def logSoftmax (l : FVec F S100000x40 .f32) : FVec F S100000x40 .f32 :=
  subf (subf l (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf l (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf l (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf l (constant S_ .f32 0xFF800000#32) reducesTo_S100000x40_S100000_d1 h_S_)))))) (constant S_ .f32 0x00000000#32) reducesTo_S100000x40_S100000_d1 h_S_))))

def hidden (x : FVec F S100000x512 .f32) (ei : IVec S2x3200000 32) (w1 : FVec F S512x16 .f32) (b1 : FVec F S16 .f32) :
    FVec F S100000x16 .f32 :=
  biasRelu (agg16 ei (dot1 x w1)) b1

def logits (x : FVec F S100000x512 .f32) (ei : IVec S2x3200000 32) (w1 : FVec F S512x16 .f32) (b1 : FVec F S16 .f32)
    (w2 : FVec F S16x40 .f32) (b2 : FVec F S40 .f32) : FVec F S100000x40 .f32 :=
  biasAdd (agg40 ei (dot2 (hidden x ei w1 b1) w2)) b2

/-- The whole network. -/
def out (x : FVec F S100000x512 .f32) (ei : IVec S2x3200000 32) (w1 : FVec F S512x16 .f32) (b1 : FVec F S16 .f32)
    (w2 : FVec F S16x40 .f32) (b2 : FVec F S40 .f32) : FVec F S100000x40 .f32 :=
  logSoftmax (logits x ei w1 b1 w2 b2)

end Cert.Net

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«176543_j81312320848104_1_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.Rows.lean ====
/-
  The entrywise functions the four kernel regions compute, over the extended reals.

  `mm x w` is the matrix product, entry (p, q) the sum over k of x (p, k) · w (k, q).  `Gcn.biasRelu a b` (from the
  affine-bodies file) is max (a (p, q) + b (0, q)) 0.  `logSoftmaxRows a b` adds the row vector b to every row of a
  and takes the log-softmax along each row: with L (p, j) = a (p, j) + b (0, j) and the row maximum
  `rowMax (L p)` — the maximum of −∞ and the row's entries — the entry (p, q) is
      (L (p, q) − rowMax (L p)) − log (Σ_j exp (L (p, j) − rowMax (L p))).
  Subtraction and the sum are those of the extended reals; no finiteness is assumed anywhere.
-/
import proofs.«176543_j81312320848104_1_alg».proof.Proof.LibAffineBodies

noncomputable section

open scoped BigOperators
open Idealize.ShloMosaic Idealize.ShloMosaic.ValueIdx

namespace Net

open Gcn (Mat)

variable {M K N : ℕ}

/-- The matrix product: entry (p, q) is the sum over k of x (p, k) · w (k, q). -/
def mm (x : Mat M K) (w : Mat K N) : Mat M N :=
  fun i => ∑ k : Fin K, x (ix2 (i 0) k) * w (ix2 k (i 1))

/-- The maximum of −∞ (the f32 pattern 0xFF800000) and the entries of a row. -/
def rowMax (L : Fin N → EReal) : EReal :=
  (Finset.univ : Finset (Fin N)).fold max (Ideal.ofBits .f32 0xFF800000#32) L

/-- Row p of a + b, shifted by its maximum, at column j. -/
def shifted (a : Mat M N) (b : Mat 1 N) (p : Fin M) (j : Fin N) : EReal :=
  a (ix2 p j) + b (ix2 0 j) - rowMax fun j' => a (ix2 p j') + b (ix2 0 j')

/-- The log-softmax along each row of a + b (the row vector b added to every row). -/
def logSoftmaxRows (a : Mat M N) (b : Mat 1 N) : Mat M N :=
  fun i => shifted a b (i 0) (i 1) - Ideal.log (∑ j : Fin N, Ideal.exp (shifted a b (i 0) j))

/-- A vector of N entries read as a matrix of one row. -/
def rowOf (b : (⟨1, ![N]⟩ : Shape).Idx → EReal) : Mat 1 N :=
  fun i => b (ix1 (i 1))

end Net

end
-- ==== Proof.Region0.lean ====
/-
  Region 0: the 20 row tiles of x, each multiplied by W1, assemble to the whole product x · W1.
-/
import proofs.«176543_j81312320848104_1_alg».proof.Proof.Gen.KernelIdeal.Frame
import proofs.«176543_j81312320848104_1_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open scoped BigOperators
open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- The all-zero offset of a block that fills its buffer. -/
theorem hz : (![0, 0] : Fin 2 → Nat) = fun _ => 0 := funext fun a => by fin_cases a <;> rfl

/-- The body's arithmetic at an entry: the two conversions are the identity over the extended reals, and the
    contraction into the zero matrix is the sum over the contracted axis. -/
theorem pay_apply (x0 : Vec Ideal S5000x512 .f32) (x1 : Vec Ideal S512x16 .f32) (p : Fin 5000) (q : Fin 16) :
    k0_pay1 x0 x1 (ix2 p q) = ∑ k : Fin 512, x0 (ix2 p k) * x1 (ix2 k q) := by
  unfold k0_pay1
  exact PlainMatmul.apply (d := dot_S5000x512_S512x16_S5000x16_1_0_0_1_n_n) ⟨rfl, rfl, rfl, rfl, rfl, rfl⟩ none x0 x1 p q

/-- The same at any entry of the block, split into its row and its column. -/
theorem pay_at (x0 : Vec Ideal S5000x512 .f32) (x1 : Vec Ideal S512x16 .f32) (j : S5000x16.Idx) :
    k0_pay1 x0 x1 j = ∑ k : Fin 512, x0 (ix2 (j 0) k) * x1 (ix2 k (j 1)) := by
  obtain ⟨p, q, rfl⟩ : ∃ (p : Fin 5000) (q : Fin 16), j = ix2 p q := ⟨j 0, j 1, eq_ix2 j⟩
  exact pay_apply x0 x1 p q

/-- The printed index maps, decided over the grid: the left operand's row block moves with the output's, which is
    the point's own number; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The two operands' blocks at point `t`, read along row `j 0` and column `j 1`, give the entry of the whole
    product at the place where the output's block puts `j`. -/
theorem block_sum (A : Gcn.Mat 100000 512) (B : Gcn.Mat 512 16) (t : Fin cfg0.N) (j : S5000x16.Idx) :
    ∑ k : Fin 512, A (((cfg0.win 0).blk t).view.emb (ix2 (j 0) k)) * B (((cfg0.win 1).blk t).view.emb (ix2 k (j 1)))
      = Net.mm (M := 100000) (K := 512) (N := 16) A B (((cfg0.win 2).blk t).view.emb j) := by
  obtain ⟨e0, e1, e2, e3, e4, e5⟩ := idx_facts t
  show _ = ∑ k : Fin 512, A (ix2 ((((cfg0.win 2).blk t).view.emb j) 0) k) * B (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [h0, h1]
  rfl

/-- What point `t` writes back is block `t` of the product of the two arrays the region reads. -/
theorem flushed_eq (c : Dev nD) (t : Fin cfg0.N) :
    (dat0 (F := Ideal) V c).flushed 2 t
      = ((cfg0.win 2).blk t).view.read (Elt Ideal)
          (Net.mm (M := 100000) (K := 512) (N := 16) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x512) hz, View.ld_unit_zero (S := S512x16) hz]
  funext j
  refine (pay_at _ _ j).trans ?_
  exact block_sum (V c main_arg0) (V c main_arg2) t j

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every index of the output array is in the block of the point numbered by its row divided by 5000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 5000 < cfg0.N := by show (i 0).val / 5000 < 20; omega
  obtain ⟨e0, e1, e2, e3, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 16 ≤ (i 1).val ∧ (i 1).val < win0_2.index ⟨(i 0).val / 5000, ht⟩ (1 : Fin 2) * 16 + 16; omega

/-- After region 0 its output array holds the matrix product of the two arrays the region reads, whatever they are. -/
theorem array (c : Dev nD) :
    (dat0 (F := Ideal) V c).arrAt 2 cfg0.N
      = Net.mm (M := 100000) (K := 512) (N := 16) (V c main_arg0) (V c main_arg2) :=
  (dat0 (F := Ideal) V c).arrAt_eq_of_cover 2 _ (fun t _ => flushed_eq V c t) cover

end Cert.KernelIdeal.Region0

end
-- ==== Proof.Region1.lean ====
/-
  Region 1: the 20 row tiles of the aggregate, each with the bias row added and clamped at zero, assemble to max (a + b, 0).
-/
import proofs.«176543_j81312320848104_1_alg».proof.Proof.Gen.KernelIdeal.Frame
import proofs.«176543_j81312320848104_1_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open scoped BigOperators
open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- The all-zero offset of a block that fills its buffer. -/
theorem hz : (![0, 0] : Fin 2 → Nat) = fun _ => 0 := funext fun a => by fin_cases a <;> rfl

/-- The body's arithmetic: the two reshapings to the same shape are the identity, and what is left is the row
    vector added to every row and the clamp at zero. -/
theorem pay_eq (x0 : Vec Ideal S5000x16 .f32) (x1 : Vec Ideal S1x16 .f32) :
    k1_pay1 x0 x1 = Gcn.biasRelu (M := 5000) (N := 16) x0 x1 := by
  unfold k1_pay1
  rw [shapeCast_self, shapeCast_self]
  exact Gcn.bias_body (M := 5000) (N := 16) x0 x1 broadcasts_S1x16_S5000x16

/-- The printed index maps, decided over the grid: the first operand's row block moves with the output's, which is
    the point's own number; every other block index is zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The first operand's block at point `t` read at `j`, with the row vector read at column `j 1`, gives the entry of
    the whole result at the place where the output's block puts `j`. -/
theorem block_eq (A : Gcn.Mat 100000 16) (B : Gcn.Mat 1 16) (t : Fin cfg1.N) (j : S5000x16.Idx) :
    max (A (((cfg1.win 0).blk t).view.emb j) + B (((cfg1.win 1).blk t).view.emb (ix2 0 (j 1)))) 0
      = Gcn.biasRelu (M := 100000) (N := 16) A B (((cfg1.win 2).blk t).view.emb j) := by
  obtain ⟨e0, e1, e2, e3, e4, e5⟩ := idx_facts t
  show _ = max (A (((cfg1.win 2).blk t).view.emb j) + B (ix2 0 ((((cfg1.win 2).blk t).view.emb j) 1))) 0
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]
  rfl

/-- What point `t` writes back is block `t` of max (a + b, 0) of the two arrays the region reads. -/
theorem flushed_eq (c : Dev nD) (t : Fin cfg1.N) :
    (dat1 (F := Ideal) V c).flushed 2 t
      = ((cfg1.win 2).blk t).view.read (Elt Ideal)
          (Gcn.biasRelu (M := 100000) (N := 16) (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S5000x16) hz, View.ld_unit_zero (S := S1x16) hz]
  rw [pay_eq]
  funext j
  exact block_eq (V c main_v43) (V c main_v44) t j

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every index of the output array is in the block of the point numbered by its row divided by 5000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have ht : (i 0).val / 5000 < cfg1.N := by show (i 0).val / 5000 < 20; omega
  obtain ⟨e0, e1, e2, e3, e4, e5⟩ := idx_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 16 ≤ (i 1).val ∧ (i 1).val < win1_2.index ⟨(i 0).val / 5000, ht⟩ (1 : Fin 2) * 16 + 16; omega

/-- After region 1 its output array holds max (a + b, 0) of the two arrays the region reads, whatever they are. -/
theorem array (c : Dev nD) :
    (dat1 (F := Ideal) V c).arrAt 2 cfg1.N
      = Gcn.biasRelu (M := 100000) (N := 16) (V c main_v43) (V c main_v44) :=
  (dat1 (F := Ideal) V c).arrAt_eq_of_cover 2 _ (fun t _ => flushed_eq V c t) cover

end Cert.KernelIdeal.Region1

end
-- ==== Proof.Region2.lean ====
/-
  Region 2: the 20 row tiles of the hidden layer, each multiplied by W2, assemble to the whole product h · W2.
-/
import proofs.«176543_j81312320848104_1_alg».proof.Proof.Gen.KernelIdeal.Frame
import proofs.«176543_j81312320848104_1_alg».proof.Proof.Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open scoped BigOperators
open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

/-- The all-zero offset of a block that fills its buffer. -/
theorem hz : (![0, 0] : Fin 2 → Nat) = fun _ => 0 := funext fun a => by fin_cases a <;> rfl

/-- The body's arithmetic at an entry: the reshaping to the same shape and the two conversions are the identity
    over the extended reals, and the contraction into the zero matrix is the sum over the contracted axis. -/
theorem pay_apply (x0 : Vec Ideal S5000x16 .f32) (x1 : Vec Ideal S16x40 .f32) (p : Fin 5000) (q : Fin 40) :
    k2_pay1 x0 x1 (ix2 p q) = ∑ k : Fin 16, x0 (ix2 p k) * x1 (ix2 k q) := by
  unfold k2_pay1
  rw [shapeCast_self]
  exact PlainMatmul.apply (d := dot_S5000x16_S16x40_S5000x40_1_0_0_1_n_n) ⟨rfl, rfl, rfl, rfl, rfl, rfl⟩ none x0 x1 p q

/-- The same at any entry of the block, split into its row and its column. -/
theorem pay_at (x0 : Vec Ideal S5000x16 .f32) (x1 : Vec Ideal S16x40 .f32) (j : S5000x40.Idx) :
    k2_pay1 x0 x1 j = ∑ k : Fin 16, x0 (ix2 (j 0) k) * x1 (ix2 k (j 1)) := by
  obtain ⟨p, q, rfl⟩ : ∃ (p : Fin 5000) (q : Fin 40), j = ix2 p q := ⟨j 0, j 1, eq_ix2 j⟩
  exact pay_apply x0 x1 p q

/-- The printed index maps, decided over the grid: the left operand's row block moves with the output's, which is
    the point's own number; every other block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The two operands' blocks at point `t`, read along row `j 0` and column `j 1`, give the entry of the whole
    product at the place where the output's block puts `j`. -/
theorem block_sum (A : Gcn.Mat 100000 16) (B : Gcn.Mat 16 40) (t : Fin cfg2.N) (j : S5000x40.Idx) :
    ∑ k : Fin 16, A (((cfg2.win 0).blk t).view.emb (ix2 (j 0) k)) * B (((cfg2.win 1).blk t).view.emb (ix2 k (j 1)))
      = Net.mm (M := 100000) (K := 16) (N := 40) A B (((cfg2.win 2).blk t).view.emb j) := by
  obtain ⟨e0, e1, e2, e3, e4, e5⟩ := idx_facts t
  show _ = ∑ k : Fin 16, A (ix2 ((((cfg2.win 2).blk t).view.emb j) 0) k) * B (ix2 k ((((cfg2.win 2).blk t).view.emb j) 1))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 16 + 1 * k.val = k.val; omega
    | ⟨1, _⟩ => show win2_1.index t (1 : Fin 2) * 40 + 1 * (j 1).val = win2_2.index t (1 : Fin 2) * 40 + 1 * (j 1).val; omega
  rw [h0, h1]
  rfl

/-- What point `t` writes back is block `t` of the product of the two arrays the region reads. -/
theorem flushed_eq (c : Dev nD) (t : Fin cfg2.N) :
    (dat2 (F := Ideal) V c).flushed 2 t
      = ((cfg2.win 2).blk t).view.read (Elt Ideal)
          (Net.mm (M := 100000) (K := 16) (N := 40) (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S5000x16) hz, View.ld_unit_zero (S := S16x40) hz]
  funext j
  refine (pay_at _ _ j).trans ?_
  exact block_sum (V c main_v45) (V c main_arg4) t j

/-- An index of the output array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Every index of the output array is in the block of the point numbered by its row divided by 5000. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have ht : (i 0).val / 5000 < cfg2.N := by show (i 0).val / 5000 < 20; omega
  obtain ⟨e0, e1, e2, e3, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 40 ≤ (i 1).val ∧ (i 1).val < win2_2.index ⟨(i 0).val / 5000, ht⟩ (1 : Fin 2) * 40 + 40; omega

/-- After region 2 its output array holds the matrix product of the two arrays the region reads, whatever they are. -/
theorem array (c : Dev nD) :
    (dat2 (F := Ideal) V c).arrAt 2 cfg2.N
      = Net.mm (M := 100000) (K := 16) (N := 40) (V c main_v45) (V c main_arg4) :=
  (dat2 (F := Ideal) V c).arrAt_eq_of_cover 2 _ (fun t _ => flushed_eq V c t) cover

end Cert.KernelIdeal.Region2

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.Region3.lean ====
/-
  Region 3: the 20 row tiles of the aggregate, each with the bias row added and its rows' log-softmax taken, assemble to the row-wise log-softmax of a + b.
-/
import proofs.«176543_j81312320848104_1_alg».proof.Proof.Gen.KernelIdeal.Frame
import proofs.«176543_j81312320848104_1_alg».proof.Proof.Rows
import proofs.«176543_j81312320848104_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open scoped BigOperators
open Idealize.ShloMosaic Idealize.ShloMosaic.TcCoe Idealize.ShloMosaic.ValueIdx Idealize.ShloMosaic.Pipeline Idealize.SL.Sem
open Cert.KernelIdeal Cert.KernelIdeal.Gen

/-- The maximum of a matrix [a, b] along its second axis, started from the word `acc`, read at row `p` over the
    extended reals: the fold of `max` from the word's value over the lanes `c` of the entries `(p, c)`. -/
theorem laneMax_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  show (Finset.univ : Finset (Fin b)).fold max (Ideal.ofBits .f32 acc) (src ∘ h.lift (ix1 p)) = _
  refine congrArg ((Finset.univ : Finset (Fin b)).fold max (Ideal.ofBits .f32 acc)) (funext fun c => ?_)
  show src (h.lift (ix1 p) c) = src (ix2 p c)
  refine congrArg src (funext fun d => Fin.ext ?_)
  match d with
  | ⟨0, _⟩ => rfl
  | ⟨1, _⟩ => rfl

/-- The log-softmax of one row `R`: each entry less the row's maximum, less the logarithm of the sum of the exponentials of
    the entries so shifted. -/
def rowLogSoftmax {N : ℕ} (R : Fin N → EReal) (q : Fin N) : EReal :=
  (R q - Net.rowMax R) - Ideal.log (∑ j : Fin N, Ideal.exp (R j - Net.rowMax R))

/-- The row-wise log-softmax of a + b at (p, q) is the log-softmax of row p of a + b, at q. -/
theorem logSoftmaxRows_apply {M N : ℕ} (a : Gcn.Mat M N) (b : Gcn.Mat 1 N) (p : Fin M) (q : Fin N) :
    Net.logSoftmaxRows a b (ix2 p q) = rowLogSoftmax (fun j => a (ix2 p j) + b (ix2 0 j)) q := rfl

/-- The tile with the bias row added to every row. -/
def biased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- It is a + b at an entry. -/
theorem biased_apply (x0 : Vec Ideal S5000x40 .f32) (x1 : Vec Ideal S1x40 .f32) (p : Fin 5000) (j : Fin 40) :
    biased x0 x1 (ix2 p j) = x0 (ix2 p j) + x1 (ix2 0 j) := by
  unfold biased
  rw [shapeCast_self, shapeCast_self, addf_apply]
  exact congrArg (x0 (ix2 p j) + ·) (Gcn.rowBroadcast_apply (M := 5000) (N := 40) x1 broadcasts_S1x40_S5000x40 p j)

/-- The row maxima of a tile `L`, kept as a column and repeated along the 40 lanes. -/
def maxCols (L : FVec Ideal S5000x40 .f32) : FVec Ideal S5000x40 .f32 :=
  broadcastTo S5000x40
    (shapeCast S5000x1 (multiReduction (F := Ideal) .maximumf [1] S5000 L 0xFF800000#32 reduces_S5000x40_S5000 (.inl rfl) rfl)
      shapeCasts_S5000_S5000x1) broadcasts_S5000x1_S5000x40

/-- At (p, j) it is the maximum of −∞ and row p of `L`. -/
theorem maxCols_apply (L : FVec Ideal S5000x40 .f32) (p : Fin 5000) (j : Fin 40) :
    maxCols L (ix2 p j) = Net.rowMax fun j' => L (ix2 p j') := by
  unfold maxCols
  refine (Cert.ColumnLayout.broadcastTo_a1_ab_apply (a := 5000) (b := 40) _ broadcasts_S5000x1_S5000x40 p j).trans ?_
  refine (Cert.ColumnLayout.shapeCast_a_a1_apply (a := 5000) _ shapeCasts_S5000_S5000x1 p 0).trans ?_
  exact laneMax_apply (a := 5000) (b := 40) L 0xFF800000#32 reduces_S5000x40_S5000 (.inl rfl) rfl p

/-- The body's chain of vector operations after the bias row is added, on a tile `L`. -/
def softmaxBody (L : FVec Ideal S5000x40 .f32) : FVec Ideal S5000x40 .f32 :=
  subf (subf L (maxCols L))
    (broadcastTo S5000x40
      (log (shapeCast S5000x1
        (multiReduction (F := Ideal) .add [1] S5000 (exp (subf L (maxCols L))) 0x00000000#32 reduces_S5000x40_S5000 (.inl rfl) rfl)
        shapeCasts_S5000_S5000x1))
      broadcasts_S5000x1_S5000x40)

/-- At (p, q) it is the log-softmax of row p of `L`, at q. -/
theorem softmaxBody_apply (L : FVec Ideal S5000x40 .f32) (p : Fin 5000) (q : Fin 40) :
    softmaxBody L (ix2 p q) = rowLogSoftmax (fun j => L (ix2 p j)) q := by
  unfold softmaxBody rowLogSoftmax
  rw [subf_apply, subf_apply, maxCols_apply]
  refine congrArg (L (ix2 p q) - (Net.rowMax fun j' => L (ix2 p j')) - ·) ?_
  refine (Cert.ColumnLayout.broadcastTo_a1_ab_apply (a := 5000) (b := 40) _ broadcasts_S5000x1_S5000x40 p q).trans ?_
  show Ideal.log (shapeCast S5000x1 _ shapeCasts_S5000_S5000x1 (ix2 p (0 : Fin 1))) = _
  refine congrArg Ideal.log ?_
  refine (Cert.ColumnLayout.shapeCast_a_a1_apply (a := 5000) _ shapeCasts_S5000_S5000x1 p 0).trans ?_
  refine (Cert.ColumnLayout.laneSum_apply (a := 5000) (b := 40) _ 0x00000000#32 reduces_S5000x40_S5000 (.inl rfl) rfl p).trans ?_
  refine Finset.sum_congr rfl fun j _ => ?_
  show Ideal.exp (L (ix2 p j) - maxCols L (ix2 p j)) = _
  rw [maxCols_apply]

/-- The body's arithmetic at an entry of the tile: the row-wise log-softmax of the tile with the bias row added. Each row
    of the result depends only on that row of the tile. -/
theorem payload_apply (x0 : Vec Ideal S5000x40 .f32) (x1 : Vec Ideal S1x40 .f32) (p : Fin 5000) (q : Fin 40) :
    k3_pay1 x0 x1 (ix2 p q) = Net.logSoftmaxRows (M := 5000) (N := 40) x0 x1 (ix2 p q) := by
  show softmaxBody (biased x0 x1) (ix2 p q) = _
  rw [softmaxBody_apply, logSoftmaxRows_apply]
  exact congrArg (fun R => rowLogSoftmax R q) (funext fun j => biased_apply x0 x1 p j)

/-- A row of a tile that agrees with a row of the whole array has that row's log-softmax: the function reads one row of a
    and the row vector b only. -/
theorem logSoftmaxRows_of_row (A : Gcn.Mat 100000 40) (b : Gcn.Mat 1 40) (x0 : Vec Ideal S5000x40 .f32)
    (x1 : Vec Ideal S1x40 .f32) (i : S100000x40.Idx) (y : S5000x40.Idx)
    (h0 : ∀ j : Fin 40, x0 (ix2 (y 0) j) = A (ix2 (i 0) j)) (h1 : ∀ j : Fin 40, x1 (ix2 0 j) = b (ix2 0 j))
    (hq : y 1 = i 1) :
    Net.logSoftmaxRows (M := 5000) (N := 40) x0 x1 y = Net.logSoftmaxRows (M := 100000) (N := 40) A b i := by
  show rowLogSoftmax (fun j => x0 (ix2 (y 0) j) + x1 (ix2 0 j)) (y 1)
    = rowLogSoftmax (fun j => A (ix2 (i 0) j) + b (ix2 0 j)) (i 1)
  rw [hq]
  exact congrArg (fun R => rowLogSoftmax R (i 1)) (funext fun j => by rw [h0, h1])

/-- The body's arithmetic is the row-wise log-softmax of its tile with the bias row added. -/
theorem payload_eq (x0 : Vec Ideal S5000x40 .f32) (x1 : Vec Ideal S1x40 .f32) :
    k3_pay1 x0 x1 = Net.logSoftmaxRows (M := 5000) (N := 40) x0 x1 := by
  funext i
  obtain ⟨p, q, rfl⟩ : ∃ (p : Fin 5000) (q : Fin 40), i = ix2 p q := ⟨i 0, i 1, eq_ix2 i⟩
  exact payload_apply x0 x1 p q

variable (V : (c : Dev nD) → (b : Ref sig .tc) → Buf (Elt Ideal) ((c : Thread nD τ).loc b))

theorem offsets_zero : (![0, 0] : Fin 2 → Nat) = fun _ => 0 := funext fun a => by fin_cases a <;> rfl

/-- The block index maps over the grid: at point t the first operand's block and the output's block are both block t of
    the rows (and the only block of the columns); the second operand's block is always the whole row vector. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every block of 5000 rows is some point's. -/
theorem block_onto : ∀ (q0 : Fin 20) (q1 : Fin 1), ∃ t : Fin cfg3.N, win3_2.index t = ![q0.val + 0, q1.val + 0] :=
  (by decide +kernel : ∀ (q0 : Fin 20) (q1 : Fin 1), ∃ t : Fin grid3.N, win3_2.index t = ![q0.val + 0, q1.val + 0])

/-- What point t writes back is block t of the row-wise log-softmax of a + b, for the arrays a, b the region finds. -/
theorem flushed_eq (c : Dev nD) (t : Fin cfg3.N) :
    (dat3 (F := Ideal) V c).flushed 2 t = ((cfg3.win 2).blk t).view.read (Elt Ideal)
      (Net.logSoftmaxRows (M := 100000) (N := 40) (V c main_v59) (V c main_v60)) := by
  show (cfg3.win 2).cut (grid3.coords t) ((dat3 (F := Ideal) V c).after 2 t) = _
  rw [after3_2]
  unfold out3_2
  rw [View.canon_unit_zero offsets_zero]
  simp only [View.ld_unit_zero (S := S5000x40) offsets_zero, View.ld_unit_zero (S := S1x40) offsets_zero]
  rw [payload_eq]
  obtain ⟨e0, e1, e2, e3, e4⟩ := block_indices t
  funext j
  show Net.logSoftmaxRows (M := 5000) (N := 40) (iblk3 V c 0 t) (iblk3 V c 1 t) j
    = Net.logSoftmaxRows (M := 100000) (N := 40) (V c main_v59) (V c main_v60) (((cfg3.win 2).blk t).view.emb j)
  refine logSoftmaxRows_of_row (V c main_v59) (V c main_v60) _ _ _ j (fun j' => ?_) (fun j' => ?_) ?_
  · show V c main_v59 (((cfg3.win 0).blk t).view.emb (ix2 (j 0) j'))
      = V c main_v59 (ix2 ((((cfg3.win 2).blk t).view.emb j) 0) j')
    refine congrArg (V c main_v59) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 40 + 1 * j'.val = j'.val; omega
  · show V c main_v60 (((cfg3.win 1).blk t).view.emb (ix2 0 j')) = V c main_v60 (ix2 0 j')
    refine congrArg (V c main_v60) (funext fun a => Fin.ext ?_)
    match a with
    | ⟨0, _⟩ => show win3_1.index t (0 : Fin 2) * 1 + 1 * 0 = 0; omega
    | ⟨1, _⟩ => show win3_1.index t (1 : Fin 2) * 40 + 1 * j'.val = j'.val; omega
  · refine Fin.ext ?_
    show (j 1).val = win3_2.index t (1 : Fin 2) * 40 + 1 * (j 1).val
    omega

/-- An index of the array is in point t's block iff each coordinate is in the block's range on its axis. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v61).slice (win3_2.rect t)).set ↔ _
  rw [View.set_slice_whole, Rect.mem_set_unit]
  exact Iff.rfl

/-- Every index of the array is in the block of the point that holds its row: row r is in block r / 5000. -/
theorem covered (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := block_onto ⟨(i 0).val / 5000, by omega⟩ ⟨(i 1).val / 40, by omega⟩
  have q0 : win3_2.index t (0 : Fin 2) = (i 0).val / 5000 + 0 := congrFun ht 0
  have q1 : win3_2.index t (1 : Fin 2) = (i 1).val / 40 + 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- After region 3 its output array holds the row-wise log-softmax of a + b for the two arrays the region reads. -/
theorem array (c : Dev nD) :
    (dat3 (F := Ideal) V c).arrAt 2 cfg3.N
      = Net.logSoftmaxRows (M := 100000) (N := 40) (V c main_v59) (V c main_v60) :=
  (dat3 (F := Ideal) V c).arrAt_eq_of_cover 2 _ (fun t _ => flushed_eq V c t) (fun i => covered i)

end Cert.KernelIdeal.Region3

end
-- ==== Proof.KWalk.lean ====
/-
  The kernel program's result, boundary by boundary.

  With the edge list `ei`, the features `x`, the weights `w1`, `w2` and the bias vectors `b1`, `b2` as launched:
  the three opening stretches of host operations leave the edges' source ends, target ends and weights
  (`srcOf ei`, `dstOf ei`, `normOf ei`: the same operations the reference applies); the first region leaves
  x · w1; the next stretch aggregates it over the edges and lays b1 out as one row; the second region adds that
  row and clamps at zero; the third region multiplies by w2; the last stretch aggregates again and lays b2 out
  as one row; the fourth region takes the row-wise log-softmax.  Every value a later segment reads is either
  computed by the segment before it or carried unchanged through the segments in between (no segment in
  between writes its buffer).
-/
import proofs.«176543_j81312320848104_1_alg».proof.Proof.Gen.KernelIdeal.Frame
import proofs.«176543_j81312320848104_1_alg».proof.Proof.Spec
import proofs.«176543_j81312320848104_1_alg».proof.Proof.Rows
import proofs.«176543_j81312320848104_1_alg».proof.Proof.Region0
import proofs.«176543_j81312320848104_1_alg».proof.Proof.Region1
import proofs.«176543_j81312320848104_1_alg».proof.Proof.Region2
import proofs.«176543_j81312320848104_1_alg».proof.Proof.Region3
import Idealize.ShloMosaic.Lib.StableHlo.Run

set_option maxRecDepth 16384

noncomputable section

namespace Cert.KernelIdeal.Walk

open Idealize.ShloMosaic Idealize.ShloMosaic.TcCoe Idealize.ShloMosaic.ValueIdx Idealize.SL.Sem Idealize.ShloMosaic.StableHlo
open Cert.KernelIdeal Cert.KernelIdeal.Gen

variable [Cert.ReferenceIdeal.Facts]
/-! ## The stretches of host operations, from any contents `X` of the buffers -/

section Stretches

variable (X : Valuation τ sig (Elt Ideal))

/-- The first opening stretch leaves, beside the edges' ends, the degree compared with zero … -/
theorem posdeg_of : StableHlo.after hostOps0 X (Proc.devRef .tc main_v12)
    = cmpf .ogt (Cert.Net.degOf (F := Ideal) (Cert.Net.dstOf (X (Proc.devRef .tc main_arg1))))
        (broadcastInDim S100000 ![] bcast_S_S100000 (constant (F := Ideal) S_ .f32 0x00000000#32)) := by
  after_results
  rfl

/-- … its inverse square root … -/
theorem rsdeg_of : StableHlo.after hostOps0 X (Proc.devRef .tc main_v13)
    = Host.rsqrt (Cert.Net.degOf (F := Ideal) (Cert.Net.dstOf (X (Proc.devRef .tc main_arg1)))) := by
  after_results
  rfl

/-- … and a zero. -/
theorem zero_of : StableHlo.after hostOps0 X (Proc.devRef .tc main_cst_2) = constant (F := Ideal) S_ .f32 0x00000000#32 := by
  after_results

/-- The second opening stretch selects between them. -/
theorem where_of : StableHlo.after hostOps0_1 X (Proc.devRef .tc main_v14)
    = select (X (Proc.devRef .tc main_v12)) (X (Proc.devRef .tc main_v13)) (broadcastInDim S100000 ![] bcast_S_S100000 (id (X (Proc.devRef .tc main_cst_2)))) := by
  after_results
  rfl

set_option maxHeartbeats 2000000 in
/-- The third opening stretch multiplies, per edge, the per-node factor at the edge's two ends. -/
theorem weights_of : StableHlo.after hostOps0_2 X (Proc.devRef .tc main_v29)
    = Cert.Net.normP (F := Ideal) (X (Proc.devRef .tc main_v5)) (X (Proc.devRef .tc main_v6)) (X (Proc.devRef .tc main_v14)) := by
  after_results_simp
  rfl

set_option maxHeartbeats 2000000 in
/-- The stretch after the first product aggregates it over the edges … -/
theorem aggregate16_of : StableHlo.after hostOps1 X (Proc.devRef .tc main_v43)
    = Cert.Net.aggr16 (F := Ideal) (X (Proc.devRef .tc main_v5)) (X (Proc.devRef .tc main_v6)) (X (Proc.devRef .tc main_v29)) (X (Proc.devRef .tc main_v30)) := by
  after_results_simp
  rfl

/-- … and lays the first bias vector out as one row. -/
theorem row16_of : StableHlo.after hostOps1 X (Proc.devRef .tc main_v44) = shapeCast S1x16 (X (Proc.devRef .tc main_arg3)) shapeCasts_S16_S1x16 := by
  after_results
  rfl

set_option maxHeartbeats 2000000 in
/-- The stretch after the second product aggregates it over the edges … -/
theorem aggregate40_of : StableHlo.after hostOps3 X (Proc.devRef .tc main_v59)
    = Cert.Net.aggr40 (F := Ideal) (X (Proc.devRef .tc main_v5)) (X (Proc.devRef .tc main_v6)) (X (Proc.devRef .tc main_v29)) (X (Proc.devRef .tc main_v46)) := by
  after_results_simp
  rfl

/-- … and lays the second bias vector out as one row. -/
theorem row40_of : StableHlo.after hostOps3 X (Proc.devRef .tc main_v60) = shapeCast S1x40 (X (Proc.devRef .tc main_arg5)) shapeCasts_S40_S1x40 := by
  after_results
  rfl

theorem keep0_2_main_v5 : StableHlo.after hostOps0_2 X (Proc.devRef .tc main_v5) = X (Proc.devRef .tc main_v5) := by after_results
theorem keep0_2_main_v6 : StableHlo.after hostOps0_2 X (Proc.devRef .tc main_v6) = X (Proc.devRef .tc main_v6) := by after_results
theorem keep0_2_main_v14 : StableHlo.after hostOps0_2 X (Proc.devRef .tc main_v14) = X (Proc.devRef .tc main_v14) := by after_results
theorem keep0_2_main_arg0 : StableHlo.after hostOps0_2 X (Proc.devRef .tc main_arg0) = X (Proc.devRef .tc main_arg0) := by after_results
theorem keep0_2_main_arg2 : StableHlo.after hostOps0_2 X (Proc.devRef .tc main_arg2) = X (Proc.devRef .tc main_arg2) := by after_results
theorem keep0_2_main_arg3 : StableHlo.after hostOps0_2 X (Proc.devRef .tc main_arg3) = X (Proc.devRef .tc main_arg3) := by after_results
theorem keep0_2_main_arg4 : StableHlo.after hostOps0_2 X (Proc.devRef .tc main_arg4) = X (Proc.devRef .tc main_arg4) := by after_results
theorem keep0_2_main_arg5 : StableHlo.after hostOps0_2 X (Proc.devRef .tc main_arg5) = X (Proc.devRef .tc main_arg5) := by after_results
theorem keep1_main_v5 : StableHlo.after hostOps1 X (Proc.devRef .tc main_v5) = X (Proc.devRef .tc main_v5) := by after_results
theorem keep1_main_v6 : StableHlo.after hostOps1 X (Proc.devRef .tc main_v6) = X (Proc.devRef .tc main_v6) := by after_results
theorem keep1_main_v29 : StableHlo.after hostOps1 X (Proc.devRef .tc main_v29) = X (Proc.devRef .tc main_v29) := by after_results
theorem keep1_main_arg4 : StableHlo.after hostOps1 X (Proc.devRef .tc main_arg4) = X (Proc.devRef .tc main_arg4) := by after_results
theorem keep1_main_arg5 : StableHlo.after hostOps1 X (Proc.devRef .tc main_arg5) = X (Proc.devRef .tc main_arg5) := by after_results

end Stretches

variable (m : (ℓ : Loc nD τ sig) → Buf (Elt Ideal) ℓ) (ρ : Dev nD → PrngReg) (c : Dev nD)

/-! ## After the first two opening stretches: the edges' ends, the per-node factor, the arguments untouched -/

theorem W2_main_v5 : W2 m ρ c (Proc.devRef .tc main_v5) = (Cert.Net.srcOf (m ((c : Thread nD τ).loc main_arg1))) := by
  show StableHlo.after hostOps0_1 (StableHlo.after hostOps0 (W0 m ρ c)) (Proc.devRef .tc main_v5) = _
  after_results
  rfl

theorem W2_main_v6 : W2 m ρ c (Proc.devRef .tc main_v6) = (Cert.Net.dstOf (m ((c : Thread nD τ).loc main_arg1))) := by
  show StableHlo.after hostOps0_1 (StableHlo.after hostOps0 (W0 m ρ c)) (Proc.devRef .tc main_v6) = _
  after_results
  rfl

set_option maxHeartbeats 2000000 in
theorem W2_main_v14 : W2 m ρ c (Proc.devRef .tc main_v14) = (Cert.Net.dinvOf (Cert.Net.degOf (F := Ideal) (Cert.Net.dstOf (m ((c : Thread nD τ).loc main_arg1))))) := by
  show StableHlo.after hostOps0_1 (StableHlo.after hostOps0 (W0 m ρ c)) (Proc.devRef .tc main_v14) = _
  refine (where_of (StableHlo.after hostOps0 (W0 m ρ c))).trans ?_
  rw [posdeg_of, rsdeg_of, zero_of]
  rfl

theorem W2_main_arg0 : W2 m ρ c (Proc.devRef .tc main_arg0) = (m ((c : Thread nD τ).loc main_arg0)) := by
  show StableHlo.after hostOps0_1 (StableHlo.after hostOps0 (W0 m ρ c)) (Proc.devRef .tc main_arg0) = _
  after_results

theorem W2_main_arg2 : W2 m ρ c (Proc.devRef .tc main_arg2) = (m ((c : Thread nD τ).loc main_arg2)) := by
  show StableHlo.after hostOps0_1 (StableHlo.after hostOps0 (W0 m ρ c)) (Proc.devRef .tc main_arg2) = _
  after_results

theorem W2_main_arg3 : W2 m ρ c (Proc.devRef .tc main_arg3) = (m ((c : Thread nD τ).loc main_arg3)) := by
  show StableHlo.after hostOps0_1 (StableHlo.after hostOps0 (W0 m ρ c)) (Proc.devRef .tc main_arg3) = _
  after_results

theorem W2_main_arg4 : W2 m ρ c (Proc.devRef .tc main_arg4) = (m ((c : Thread nD τ).loc main_arg4)) := by
  show StableHlo.after hostOps0_1 (StableHlo.after hostOps0 (W0 m ρ c)) (Proc.devRef .tc main_arg4) = _
  after_results

theorem W2_main_arg5 : W2 m ρ c (Proc.devRef .tc main_arg5) = (m ((c : Thread nD τ).loc main_arg5)) := by
  show StableHlo.after hostOps0_1 (StableHlo.after hostOps0 (W0 m ρ c)) (Proc.devRef .tc main_arg5) = _
  after_results

/-! ## After the third: the edges' weights -/

theorem W3_main_v5 : W3 m ρ c (Proc.devRef .tc main_v5) = (Cert.Net.srcOf (m ((c : Thread nD τ).loc main_arg1))) := (keep0_2_main_v5 (W2 m ρ c)).trans (W2_main_v5 m ρ c)
theorem W3_main_v6 : W3 m ρ c (Proc.devRef .tc main_v6) = (Cert.Net.dstOf (m ((c : Thread nD τ).loc main_arg1))) := (keep0_2_main_v6 (W2 m ρ c)).trans (W2_main_v6 m ρ c)
theorem W3_main_arg0 : W3 m ρ c (Proc.devRef .tc main_arg0) = (m ((c : Thread nD τ).loc main_arg0)) := (keep0_2_main_arg0 (W2 m ρ c)).trans (W2_main_arg0 m ρ c)
theorem W3_main_arg2 : W3 m ρ c (Proc.devRef .tc main_arg2) = (m ((c : Thread nD τ).loc main_arg2)) := (keep0_2_main_arg2 (W2 m ρ c)).trans (W2_main_arg2 m ρ c)
theorem W3_main_arg3 : W3 m ρ c (Proc.devRef .tc main_arg3) = (m ((c : Thread nD τ).loc main_arg3)) := (keep0_2_main_arg3 (W2 m ρ c)).trans (W2_main_arg3 m ρ c)
theorem W3_main_arg4 : W3 m ρ c (Proc.devRef .tc main_arg4) = (m ((c : Thread nD τ).loc main_arg4)) := (keep0_2_main_arg4 (W2 m ρ c)).trans (W2_main_arg4 m ρ c)
theorem W3_main_arg5 : W3 m ρ c (Proc.devRef .tc main_arg5) = (m ((c : Thread nD τ).loc main_arg5)) := (keep0_2_main_arg5 (W2 m ρ c)).trans (W2_main_arg5 m ρ c)

theorem W3_main_v29 : W3 m ρ c (Proc.devRef .tc main_v29) = (Cert.Net.normOf (F := Ideal) (m ((c : Thread nD τ).loc main_arg1))) := by
  refine (weights_of (W2 m ρ c)).trans ?_
  rw [W2_main_v5, W2_main_v6, W2_main_v14]
  rfl

/-! ## Region 0: x · w1 -/

theorem W4_main_v30 : W4 m ρ c (Proc.devRef .tc main_v30) = (Net.mm (M := 100000) (K := 512) (N := 16) (m ((c : Thread nD τ).loc main_arg0)) (m ((c : Thread nD τ).loc main_arg2))) := by
  refine (W4_arr m ρ c 2).trans ((Region0.array (V3 m ρ) c).trans ?_)
  show Net.mm (W3 m ρ c (Proc.devRef .tc main_arg0)) (W3 m ρ c (Proc.devRef .tc main_arg2)) = _
  rw [W3_main_arg0, W3_main_arg2]

theorem W4_main_v5 : W4 m ρ c (Proc.devRef .tc main_v5) = (Cert.Net.srcOf (m ((c : Thread nD τ).loc main_arg1))) := (W4_of_ne m ρ c main_v5 (by decide)).trans (W3_main_v5 m ρ c)
theorem W4_main_v6 : W4 m ρ c (Proc.devRef .tc main_v6) = (Cert.Net.dstOf (m ((c : Thread nD τ).loc main_arg1))) := (W4_of_ne m ρ c main_v6 (by decide)).trans (W3_main_v6 m ρ c)
theorem W4_main_v29 : W4 m ρ c (Proc.devRef .tc main_v29) = (Cert.Net.normOf (F := Ideal) (m ((c : Thread nD τ).loc main_arg1))) := (W4_of_ne m ρ c main_v29 (by decide)).trans (W3_main_v29 m ρ c)
theorem W4_main_arg3 : W4 m ρ c (Proc.devRef .tc main_arg3) = (m ((c : Thread nD τ).loc main_arg3)) := (W4_of_ne m ρ c main_arg3 (by decide)).trans (W3_main_arg3 m ρ c)
theorem W4_main_arg4 : W4 m ρ c (Proc.devRef .tc main_arg4) = (m ((c : Thread nD τ).loc main_arg4)) := (W4_of_ne m ρ c main_arg4 (by decide)).trans (W3_main_arg4 m ρ c)
theorem W4_main_arg5 : W4 m ρ c (Proc.devRef .tc main_arg5) = (m ((c : Thread nD τ).loc main_arg5)) := (W4_of_ne m ρ c main_arg5 (by decide)).trans (W3_main_arg5 m ρ c)

/-! ## The stretch after it: the first aggregation, and b1 as one row -/

theorem W5_main_v43 : W5 m ρ c (Proc.devRef .tc main_v43) = (Cert.Net.aggr16 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 512) (N := 16) (m ((c : Thread nD τ).loc main_arg0)) (m ((c : Thread nD τ).loc main_arg2)))) := by
  refine (aggregate16_of (W4 m ρ c)).trans ?_
  rw [W4_main_v5, W4_main_v6, W4_main_v29, W4_main_v30]

theorem W5_main_v44 : W5 m ρ c (Proc.devRef .tc main_v44) = (shapeCast S1x16 (m ((c : Thread nD τ).loc main_arg3)) shapeCasts_S16_S1x16) := by
  refine (row16_of (W4 m ρ c)).trans ?_
  rw [W4_main_arg3]

theorem W5_main_v5 : W5 m ρ c (Proc.devRef .tc main_v5) = (Cert.Net.srcOf (m ((c : Thread nD τ).loc main_arg1))) := (keep1_main_v5 (W4 m ρ c)).trans (W4_main_v5 m ρ c)
theorem W5_main_v6 : W5 m ρ c (Proc.devRef .tc main_v6) = (Cert.Net.dstOf (m ((c : Thread nD τ).loc main_arg1))) := (keep1_main_v6 (W4 m ρ c)).trans (W4_main_v6 m ρ c)
theorem W5_main_v29 : W5 m ρ c (Proc.devRef .tc main_v29) = (Cert.Net.normOf (F := Ideal) (m ((c : Thread nD τ).loc main_arg1))) := (keep1_main_v29 (W4 m ρ c)).trans (W4_main_v29 m ρ c)
theorem W5_main_arg4 : W5 m ρ c (Proc.devRef .tc main_arg4) = (m ((c : Thread nD τ).loc main_arg4)) := (keep1_main_arg4 (W4 m ρ c)).trans (W4_main_arg4 m ρ c)
theorem W5_main_arg5 : W5 m ρ c (Proc.devRef .tc main_arg5) = (m ((c : Thread nD τ).loc main_arg5)) := (keep1_main_arg5 (W4 m ρ c)).trans (W4_main_arg5 m ρ c)

/-! ## Region 1: the bias added, clamped at zero -/

theorem W6_main_v45 : W6 m ρ c (Proc.devRef .tc main_v45) = (Gcn.biasRelu (M := 100000) (N := 16) (Cert.Net.aggr16 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 512) (N := 16) (m ((c : Thread nD τ).loc main_arg0)) (m ((c : Thread nD τ).loc main_arg2)))) (shapeCast S1x16 (m ((c : Thread nD τ).loc main_arg3)) shapeCasts_S16_S1x16)) := by
  refine (W6_arr m ρ c 2).trans ((Region1.array (V5 m ρ) c).trans ?_)
  show Gcn.biasRelu (W5 m ρ c (Proc.devRef .tc main_v43)) (W5 m ρ c (Proc.devRef .tc main_v44)) = _
  rw [W5_main_v43, W5_main_v44]

theorem W6_main_v5 : W6 m ρ c (Proc.devRef .tc main_v5) = (Cert.Net.srcOf (m ((c : Thread nD τ).loc main_arg1))) := (W6_of_ne m ρ c main_v5 (by decide)).trans (W5_main_v5 m ρ c)
theorem W6_main_v6 : W6 m ρ c (Proc.devRef .tc main_v6) = (Cert.Net.dstOf (m ((c : Thread nD τ).loc main_arg1))) := (W6_of_ne m ρ c main_v6 (by decide)).trans (W5_main_v6 m ρ c)
theorem W6_main_v29 : W6 m ρ c (Proc.devRef .tc main_v29) = (Cert.Net.normOf (F := Ideal) (m ((c : Thread nD τ).loc main_arg1))) := (W6_of_ne m ρ c main_v29 (by decide)).trans (W5_main_v29 m ρ c)
theorem W6_main_arg4 : W6 m ρ c (Proc.devRef .tc main_arg4) = (m ((c : Thread nD τ).loc main_arg4)) := (W6_of_ne m ρ c main_arg4 (by decide)).trans (W5_main_arg4 m ρ c)
theorem W6_main_arg5 : W6 m ρ c (Proc.devRef .tc main_arg5) = (m ((c : Thread nD τ).loc main_arg5)) := (W6_of_ne m ρ c main_arg5 (by decide)).trans (W5_main_arg5 m ρ c)

/-! ## Region 2: h · w2 -/

theorem W7_main_v46 : W7 m ρ c (Proc.devRef .tc main_v46) = (Net.mm (M := 100000) (K := 16) (N := 40) (Gcn.biasRelu (M := 100000) (N := 16) (Cert.Net.aggr16 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 512) (N := 16) (m ((c : Thread nD τ).loc main_arg0)) (m ((c : Thread nD τ).loc main_arg2)))) (shapeCast S1x16 (m ((c : Thread nD τ).loc main_arg3)) shapeCasts_S16_S1x16)) (m ((c : Thread nD τ).loc main_arg4))) := by
  refine (W7_arr m ρ c 2).trans ((Region2.array (V6 m ρ) c).trans ?_)
  show Net.mm (W6 m ρ c (Proc.devRef .tc main_v45)) (W6 m ρ c (Proc.devRef .tc main_arg4)) = _
  rw [W6_main_v45, W6_main_arg4]

theorem W7_main_v5 : W7 m ρ c (Proc.devRef .tc main_v5) = (Cert.Net.srcOf (m ((c : Thread nD τ).loc main_arg1))) := (W7_of_ne m ρ c main_v5 (by decide)).trans (W6_main_v5 m ρ c)
theorem W7_main_v6 : W7 m ρ c (Proc.devRef .tc main_v6) = (Cert.Net.dstOf (m ((c : Thread nD τ).loc main_arg1))) := (W7_of_ne m ρ c main_v6 (by decide)).trans (W6_main_v6 m ρ c)
theorem W7_main_v29 : W7 m ρ c (Proc.devRef .tc main_v29) = (Cert.Net.normOf (F := Ideal) (m ((c : Thread nD τ).loc main_arg1))) := (W7_of_ne m ρ c main_v29 (by decide)).trans (W6_main_v29 m ρ c)
theorem W7_main_arg5 : W7 m ρ c (Proc.devRef .tc main_arg5) = (m ((c : Thread nD τ).loc main_arg5)) := (W7_of_ne m ρ c main_arg5 (by decide)).trans (W6_main_arg5 m ρ c)

/-! ## The last stretch: the second aggregation, and b2 as one row -/

theorem W8_main_v59 : W8 m ρ c (Proc.devRef .tc main_v59) = (Cert.Net.aggr40 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 16) (N := 40) (Gcn.biasRelu (M := 100000) (N := 16) (Cert.Net.aggr16 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 512) (N := 16) (m ((c : Thread nD τ).loc main_arg0)) (m ((c : Thread nD τ).loc main_arg2)))) (shapeCast S1x16 (m ((c : Thread nD τ).loc main_arg3)) shapeCasts_S16_S1x16)) (m ((c : Thread nD τ).loc main_arg4)))) := by
  refine (aggregate40_of (W7 m ρ c)).trans ?_
  rw [W7_main_v5, W7_main_v6, W7_main_v29, W7_main_v46]

theorem W8_main_v60 : W8 m ρ c (Proc.devRef .tc main_v60) = (shapeCast S1x40 (m ((c : Thread nD τ).loc main_arg5)) shapeCasts_S40_S1x40) := by
  refine (row40_of (W7 m ρ c)).trans ?_
  rw [W7_main_arg5]

/-! ## Region 3: the row-wise log-softmax — the kernel program's result -/

theorem W9_main_v61 : W9 m ρ c (Proc.devRef .tc main_v61) = (Net.logSoftmaxRows (M := 100000) (N := 40) (Cert.Net.aggr40 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 16) (N := 40) (Gcn.biasRelu (M := 100000) (N := 16) (Cert.Net.aggr16 (F := Ideal) (Cert.Net.srcOf (m ((c : Thread nD τ).loc main_arg1))) (Cert.Net.dstOf (m ((c : Thread nD τ).loc main_arg1))) (Cert.Net.normOf (F := Ideal) (m ((c : Thread nD τ).loc main_arg1))) (Net.mm (M := 100000) (K := 512) (N := 16) (m ((c : Thread nD τ).loc main_arg0)) (m ((c : Thread nD τ).loc main_arg2)))) (shapeCast S1x16 (m ((c : Thread nD τ).loc main_arg3)) shapeCasts_S16_S1x16)) (m ((c : Thread nD τ).loc main_arg4)))) (shapeCast S1x40 (m ((c : Thread nD τ).loc main_arg5)) shapeCasts_S40_S1x40)) := by
  refine (W9_arr m ρ c 2).trans ((Region3.array (V8 m ρ) c).trans ?_)
  show Net.logSoftmaxRows (W8 m ρ c (Proc.devRef .tc main_v59)) (W8 m ρ c (Proc.devRef .tc main_v60)) = _
  rw [W8_main_v59, W8_main_v60]

end Cert.KernelIdeal.Walk

end
-- ==== Proof.RefValue.lean ====
/-
  The reference program's result.

  The reference is one straight line of 138 host operations.  It is cut here into twenty consecutive chunks —
  x · w1; the edges' ends; the per-node factor; the edges' weights; the first aggregation; the bias and the clamp;
  the product with w2; the edges' ends, the factor and the weights once more (the reference computes them twice);
  the second aggregation; the bias; the row maxima, the shift by them and the rest of the log-softmax — and each chunk's result is read, from ANY contents of the
  buffers it starts from, as the specification's function of the buffers it reads.  Chained from the launch
  contents these give the result buffer as the specification's `out` of the six arguments.
-/
import proofs.«176543_j81312320848104_1_alg».proof.Proof.RefOps
import proofs.«176543_j81312320848104_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The twenty chunks -/

abbrev r0 : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

abbrev r1 : List (HloOp τ sig (Elt F)) :=
  [ nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

abbrev r2 : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

abbrev r3 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

abbrev r4 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v4 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v4 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

abbrev r5 : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

abbrev r6 : List (HloOp τ sig (Elt F)) :=
  [ binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

abbrev r7 : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

abbrev r8 : List (HloOp τ sig (Elt F)) :=
  [ nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

abbrev r9 : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

abbrev r10 : List (HloOp τ sig (Elt F)) :=
  [ nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v52 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v52 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v48 main_v84 main_v85 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v78 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v87 main_v88 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

abbrev r11 : List (HloOp τ sig (Elt F)) :=
  [ unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]

abbrev r12a : List (HloOp τ sig (Elt F)) :=
  [ TRef.nullary (TRef.of (T := ⟨S_, .f32⟩) main_call3_cst) (constant S_ .f32 0xFF800000#32) ]

abbrev r12a' : List (HloOp τ sig (Elt F)) :=
  [ TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_) ]

abbrev r12b : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000) ]

abbrev r12c : List (HloOp τ sig (Elt F)) :=
  [ TRef.binary (TRef.of (T := ⟨S100000, .f32⟩) main_call3_v1) (TRef.of (T := ⟨S100000, .f32⟩) main_call3_v0) (TRef.of (T := ⟨S100000, .f32⟩) main_call3_v2) maximumf ]

abbrev r12d : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0) ]

abbrev r12e : List (HloOp τ sig (Elt F)) :=
  [ TRef.unary (TRef.of (T := ⟨S100000x1, .f32⟩) main_call3_v3) (TRef.of (T := ⟨S100000x40, .f32⟩) main_call3_v4) (broadcastInDim S100000x40 ![0, 1] bcast_S100000x1_S100000x40_0_1) ]

abbrev r13 : List (HloOp τ sig (Elt F)) :=
  [ TRef.binary (TRef.of (T := ⟨S100000x40, .f32⟩) main_v94) (TRef.of (T := ⟨S100000x40, .f32⟩) main_call3_v4) (TRef.of (T := ⟨S100000x40, .f32⟩) main_call3_v5) subf ]

abbrev r14 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxRecDepth 8192 in
/-- The chunks, in order, are the reference's operations. -/
theorem ops_eq : (ValueP.ops : List (HloOp τ sig (Elt F))) = r0 ++ (r1 ++ (r2 ++ (r3 ++ (r4 ++ (r5 ++ (r6 ++ (r7 ++ (r8 ++ (r9 ++ (r10 ++ (r11 ++ (r12a ++ (r12a' ++ (r12b ++ (r12c ++ (r12d ++ (r12e ++ (r13 ++ (r14))))))))))))))))))) := rfl

/-! ## The log-softmax in three steps -/

section Softmax

/-- Each row's maximum, from −∞. -/
def rowMaxFrom (l : FVec F S100000x40 .f32) (z : FVec F S_ .f32) : FVec F S100000 .f32 :=
  Host.reduce FloatOps.maximumf l z reducesTo_S100000x40_S100000_d1 h_S_

/-- Each row's maximum, from −∞. -/
def rowMaxOf (l : FVec F S100000x40 .f32) : FVec F S100000 .f32 :=
  rowMaxFrom l (constant S_ .f32 0xFF800000#32)

/-- −∞ at every row. -/
def negInfRow : FVec F S100000 .f32 :=
  broadcastInDim S100000 ![] bcast_S_S100000 (constant S_ .f32 0xFF800000#32)

/-- Each row's maximum (taken against −∞), repeated along the row. -/
def maxRows (l : FVec F S100000x40 .f32) : FVec F S100000x40 .f32 :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf l (constant S_ .f32 0xFF800000#32) reducesTo_S100000x40_S100000_d1 h_S_)))

/-- From the logits shifted by their row maxima: `s − log (Σ_j exp s_j)`, the sum along each row. -/
def lsmTail (s : FVec F S100000x40 .f32) : FVec F S100000x40 .f32 :=
  subf s (broadcastInDim S100000x40 ![0, 1] bcast_S100000x1_S100000x40_0_1 (Host.log (broadcastInDim S100000x1 ![0] bcast_S100000_S100000x1_0 (Host.reduceAdd (Host.exp s) (constant S_ .f32 0x00000000#32) reducesTo_S100000x40_S100000_d1 h_S_))))

/-- The log-softmax is: shift by the row maxima, then the tail. -/
theorem logSoftmax_split (l : FVec F S100000x40 .f32) :
    Cert.Net.logSoftmax (F := F) l = lsmTail (subf l (maxRows l)) := rfl

end Softmax

/-! ## Each chunk, from any contents `X` -/

section Chunks

variable (X : Valuation τ sig (Elt F))

set_option maxHeartbeats 2000000 in
theorem chunk0_main_v0 : after r0 X (Proc.devRef .tc main_v0) = Cert.Net.dot1 (X (Proc.devRef .tc main_arg0)) (X (Proc.devRef .tc main_arg2)) := by
  after_results
  rfl

set_option maxHeartbeats 2000000 in
theorem chunk1_main_v4 : after r1 X (Proc.devRef .tc main_v4) = Cert.Net.srcOf (X (Proc.devRef .tc main_arg1)) := by
  after_results
  rfl

set_option maxHeartbeats 2000000 in
theorem chunk1_main_v7 : after r1 X (Proc.devRef .tc main_v7) = Cert.Net.dstOf (X (Proc.devRef .tc main_arg1)) := by
  after_results
  rfl

set_option maxHeartbeats 2000000 in
theorem chunk2_main_v15 : after r2 X (Proc.devRef .tc main_v15) = Cert.Net.dinvOf (Cert.Net.degOf (F := F) (X (Proc.devRef .tc main_v7))) := by
  after_results_simp
  rfl

set_option maxHeartbeats 2000000 in
theorem chunk3_main_v30 : after r3 X (Proc.devRef .tc main_v30) = Cert.Net.normP (F := F) (X (Proc.devRef .tc main_v4)) (X (Proc.devRef .tc main_v7)) (X (Proc.devRef .tc main_v15)) := by
  after_results_simp
  rfl

set_option maxHeartbeats 2000000 in
theorem chunk4_main_v43 : after r4 X (Proc.devRef .tc main_v43) = Cert.Net.aggr16 (F := F) (X (Proc.devRef .tc main_v4)) (X (Proc.devRef .tc main_v7)) (X (Proc.devRef .tc main_v30)) (X (Proc.devRef .tc main_v0)) := by
  after_results_simp
  rfl

set_option maxHeartbeats 2000000 in
theorem chunk5_main_v47 : after r5 X (Proc.devRef .tc main_v47) = Cert.Net.biasRelu (F := F) (X (Proc.devRef .tc main_v43)) (X (Proc.devRef .tc main_arg3)) := by
  after_results_simp
  rfl

set_option maxHeartbeats 2000000 in
theorem chunk6_main_v48 : after r6 X (Proc.devRef .tc main_v48) = Cert.Net.dot2 (F := F) (X (Proc.devRef .tc main_v47)) (X (Proc.devRef .tc main_arg4)) := by
  after_results
  rfl

set_option maxHeartbeats 2000000 in
theorem chunk7_main_v52 : after r7 X (Proc.devRef .tc main_v52) = Cert.Net.srcOf (X (Proc.devRef .tc main_arg1)) := by
  after_results
  rfl

set_option maxHeartbeats 2000000 in
theorem chunk7_main_v55 : after r7 X (Proc.devRef .tc main_v55) = Cert.Net.dstOf (X (Proc.devRef .tc main_arg1)) := by
  after_results
  rfl

set_option maxHeartbeats 2000000 in
theorem chunk8_main_v63 : after r8 X (Proc.devRef .tc main_v63) = Cert.Net.dinvOf (Cert.Net.degOf (F := F) (X (Proc.devRef .tc main_v55))) := by
  after_results_simp
  rfl

set_option maxHeartbeats 2000000 in
theorem chunk9_main_v78 : after r9 X (Proc.devRef .tc main_v78) = Cert.Net.normP (F := F) (X (Proc.devRef .tc main_v52)) (X (Proc.devRef .tc main_v55)) (X (Proc.devRef .tc main_v63)) := by
  after_results_simp
  rfl

set_option maxHeartbeats 2000000 in
theorem chunk10_main_v91 : after r10 X (Proc.devRef .tc main_v91) = Cert.Net.aggr40 (F := F) (X (Proc.devRef .tc main_v52)) (X (Proc.devRef .tc main_v55)) (X (Proc.devRef .tc main_v78)) (X (Proc.devRef .tc main_v48)) := by
  after_results_simp
  rfl

set_option maxHeartbeats 2000000 in
theorem chunk11_main_v94 : after r11 X (Proc.devRef .tc main_v94) = Cert.Net.biasAdd (F := F) (X (Proc.devRef .tc main_v91)) (X (Proc.devRef .tc main_arg5)) := by
  after_results_simp
  rfl

set_option maxRecDepth 100000 in
theorem chunk12a_main_call3_cst : after r12a X (Proc.devRef .tc main_call3_cst) = constant (F := F) S_ .f32 0xFF800000#32 := by
  after_results
  rfl

/-- One two-operand operation from the logits and a scalar into a row vector, whatever the operation `g` is: its
    result buffer holds `g` of the two operand buffers. -/
theorem rowOp_result (g : (⟨S100000x40, .f32⟩ : BufTy).Contents (Elt F) → (⟨S_, .f32⟩ : BufTy).Contents (Elt F) → (⟨S100000, .f32⟩ : BufTy).Contents (Elt F)) :
    after [TRef.binary (TRef.of (T := ⟨S100000x40, .f32⟩) main_v94) (TRef.of (T := ⟨S_, .f32⟩) main_call3_cst) (TRef.of (T := ⟨S100000, .f32⟩) main_call3_v0) g] X (Proc.devRef .tc main_call3_v0)
      = g (X (Proc.devRef .tc main_v94)) (X (Proc.devRef .tc main_call3_cst)) := by
  after_results
  rfl

theorem chunk12a'_main_call3_v0 : after r12a' X (Proc.devRef .tc main_call3_v0) = rowMaxFrom (F := F) (X (Proc.devRef .tc main_v94)) (X (Proc.devRef .tc main_call3_cst)) :=
  rowOp_result X (fun x v => Host.reduce FloatOps.maximumf x v reducesTo_S100000x40_S100000_d1 h_S_)

theorem keep12a'_main_v94 : after r12a' X (Proc.devRef .tc main_v94) = X (Proc.devRef .tc main_v94) := by after_results

theorem chunk12b_main_call3_v1 : after r12b X (Proc.devRef .tc main_call3_v1) = negInfRow (F := F) := by
  after_results
  rfl

theorem chunk12c_main_call3_v2 : after r12c X (Proc.devRef .tc main_call3_v2) = maximumf (F := F) (X (Proc.devRef .tc main_call3_v1)) (X (Proc.devRef .tc main_call3_v0)) := by
  after_results
  rfl

theorem chunk12d_main_call3_v3 : after r12d X (Proc.devRef .tc main_call3_v3)
    = broadcastInDim S100000x1 ![0] bcast_S100000_S100000x1_0 (X (Proc.devRef .tc main_call3_v2)) := by
  after_results
  rfl

theorem chunk12e_main_call3_v4 : after r12e X (Proc.devRef .tc main_call3_v4)
    = broadcastInDim S100000x40 ![0, 1] bcast_S100000x1_S100000x40_0_1 (X (Proc.devRef .tc main_call3_v3)) := by
  after_results
  rfl

theorem keep12a_main_v94 : after r12a X (Proc.devRef .tc main_v94) = X (Proc.devRef .tc main_v94) := by after_results
theorem keep12b_main_v94 : after r12b X (Proc.devRef .tc main_v94) = X (Proc.devRef .tc main_v94) := by after_results
theorem keep12c_main_v94 : after r12c X (Proc.devRef .tc main_v94) = X (Proc.devRef .tc main_v94) := by after_results
theorem keep12d_main_v94 : after r12d X (Proc.devRef .tc main_v94) = X (Proc.devRef .tc main_v94) := by after_results
theorem keep12e_main_v94 : after r12e X (Proc.devRef .tc main_v94) = X (Proc.devRef .tc main_v94) := by after_results
theorem keep12b_main_call3_v0 : after r12b X (Proc.devRef .tc main_call3_v0) = X (Proc.devRef .tc main_call3_v0) := by after_results

theorem chunk13_main_call3_v5 : after r13 X (Proc.devRef .tc main_call3_v5) = subf (F := F) (X (Proc.devRef .tc main_v94)) (X (Proc.devRef .tc main_call3_v4)) := by
  after_results
  rfl

set_option maxHeartbeats 2000000 in
theorem chunk14_main_v95 : after r14 X (Proc.devRef .tc main_v95) = lsmTail (F := F) (X (Proc.devRef .tc main_call3_v5)) := by
  after_results
  rfl

theorem keep0_main_arg1 : after r0 X (Proc.devRef .tc main_arg1) = X (Proc.devRef .tc main_arg1) := by after_results
theorem keep0_main_arg3 : after r0 X (Proc.devRef .tc main_arg3) = X (Proc.devRef .tc main_arg3) := by after_results
theorem keep0_main_arg4 : after r0 X (Proc.devRef .tc main_arg4) = X (Proc.devRef .tc main_arg4) := by after_results
theorem keep0_main_arg5 : after r0 X (Proc.devRef .tc main_arg5) = X (Proc.devRef .tc main_arg5) := by after_results
theorem keep1_main_v0 : after r1 X (Proc.devRef .tc main_v0) = X (Proc.devRef .tc main_v0) := by after_results
theorem keep1_main_arg1 : after r1 X (Proc.devRef .tc main_arg1) = X (Proc.devRef .tc main_arg1) := by after_results
theorem keep1_main_arg3 : after r1 X (Proc.devRef .tc main_arg3) = X (Proc.devRef .tc main_arg3) := by after_results
theorem keep1_main_arg4 : after r1 X (Proc.devRef .tc main_arg4) = X (Proc.devRef .tc main_arg4) := by after_results
theorem keep1_main_arg5 : after r1 X (Proc.devRef .tc main_arg5) = X (Proc.devRef .tc main_arg5) := by after_results
theorem keep2_main_v0 : after r2 X (Proc.devRef .tc main_v0) = X (Proc.devRef .tc main_v0) := by after_results
theorem keep2_main_v4 : after r2 X (Proc.devRef .tc main_v4) = X (Proc.devRef .tc main_v4) := by after_results
theorem keep2_main_v7 : after r2 X (Proc.devRef .tc main_v7) = X (Proc.devRef .tc main_v7) := by after_results
theorem keep2_main_arg1 : after r2 X (Proc.devRef .tc main_arg1) = X (Proc.devRef .tc main_arg1) := by after_results
theorem keep2_main_arg3 : after r2 X (Proc.devRef .tc main_arg3) = X (Proc.devRef .tc main_arg3) := by after_results
theorem keep2_main_arg4 : after r2 X (Proc.devRef .tc main_arg4) = X (Proc.devRef .tc main_arg4) := by after_results
theorem keep2_main_arg5 : after r2 X (Proc.devRef .tc main_arg5) = X (Proc.devRef .tc main_arg5) := by after_results
theorem keep3_main_v0 : after r3 X (Proc.devRef .tc main_v0) = X (Proc.devRef .tc main_v0) := by after_results
theorem keep3_main_v4 : after r3 X (Proc.devRef .tc main_v4) = X (Proc.devRef .tc main_v4) := by after_results
theorem keep3_main_v7 : after r3 X (Proc.devRef .tc main_v7) = X (Proc.devRef .tc main_v7) := by after_results
theorem keep3_main_arg1 : after r3 X (Proc.devRef .tc main_arg1) = X (Proc.devRef .tc main_arg1) := by after_results
theorem keep3_main_arg3 : after r3 X (Proc.devRef .tc main_arg3) = X (Proc.devRef .tc main_arg3) := by after_results
theorem keep3_main_arg4 : after r3 X (Proc.devRef .tc main_arg4) = X (Proc.devRef .tc main_arg4) := by after_results
theorem keep3_main_arg5 : after r3 X (Proc.devRef .tc main_arg5) = X (Proc.devRef .tc main_arg5) := by after_results
theorem keep4_main_arg1 : after r4 X (Proc.devRef .tc main_arg1) = X (Proc.devRef .tc main_arg1) := by after_results
theorem keep4_main_arg3 : after r4 X (Proc.devRef .tc main_arg3) = X (Proc.devRef .tc main_arg3) := by after_results
theorem keep4_main_arg4 : after r4 X (Proc.devRef .tc main_arg4) = X (Proc.devRef .tc main_arg4) := by after_results
theorem keep4_main_arg5 : after r4 X (Proc.devRef .tc main_arg5) = X (Proc.devRef .tc main_arg5) := by after_results
theorem keep5_main_arg1 : after r5 X (Proc.devRef .tc main_arg1) = X (Proc.devRef .tc main_arg1) := by after_results
theorem keep5_main_arg4 : after r5 X (Proc.devRef .tc main_arg4) = X (Proc.devRef .tc main_arg4) := by after_results
theorem keep5_main_arg5 : after r5 X (Proc.devRef .tc main_arg5) = X (Proc.devRef .tc main_arg5) := by after_results
theorem keep6_main_arg1 : after r6 X (Proc.devRef .tc main_arg1) = X (Proc.devRef .tc main_arg1) := by after_results
theorem keep6_main_arg5 : after r6 X (Proc.devRef .tc main_arg5) = X (Proc.devRef .tc main_arg5) := by after_results
theorem keep7_main_v48 : after r7 X (Proc.devRef .tc main_v48) = X (Proc.devRef .tc main_v48) := by after_results
theorem keep7_main_arg5 : after r7 X (Proc.devRef .tc main_arg5) = X (Proc.devRef .tc main_arg5) := by after_results
theorem keep8_main_v48 : after r8 X (Proc.devRef .tc main_v48) = X (Proc.devRef .tc main_v48) := by after_results
theorem keep8_main_v52 : after r8 X (Proc.devRef .tc main_v52) = X (Proc.devRef .tc main_v52) := by after_results
theorem keep8_main_v55 : after r8 X (Proc.devRef .tc main_v55) = X (Proc.devRef .tc main_v55) := by after_results
theorem keep8_main_arg5 : after r8 X (Proc.devRef .tc main_arg5) = X (Proc.devRef .tc main_arg5) := by after_results
theorem keep9_main_v48 : after r9 X (Proc.devRef .tc main_v48) = X (Proc.devRef .tc main_v48) := by after_results
theorem keep9_main_v52 : after r9 X (Proc.devRef .tc main_v52) = X (Proc.devRef .tc main_v52) := by after_results
theorem keep9_main_v55 : after r9 X (Proc.devRef .tc main_v55) = X (Proc.devRef .tc main_v55) := by after_results
theorem keep9_main_arg5 : after r9 X (Proc.devRef .tc main_arg5) = X (Proc.devRef .tc main_arg5) := by after_results
theorem keep10_main_arg5 : after r10 X (Proc.devRef .tc main_arg5) = X (Proc.devRef .tc main_arg5) := by after_results

end Chunks

/-! ## The contents after each chunk, from the launch contents `X` -/

section Stages

variable (X : Valuation τ sig (Elt F))

def Y0 : Valuation τ sig (Elt F) := X
def Y1 : Valuation τ sig (Elt F) := after r0 (Y0 X)
def Y2 : Valuation τ sig (Elt F) := after r1 (Y1 X)
def Y3 : Valuation τ sig (Elt F) := after r2 (Y2 X)
def Y4 : Valuation τ sig (Elt F) := after r3 (Y3 X)
def Y5 : Valuation τ sig (Elt F) := after r4 (Y4 X)
def Y6 : Valuation τ sig (Elt F) := after r5 (Y5 X)
def Y7 : Valuation τ sig (Elt F) := after r6 (Y6 X)
def Y8 : Valuation τ sig (Elt F) := after r7 (Y7 X)
def Y9 : Valuation τ sig (Elt F) := after r8 (Y8 X)
def Y10 : Valuation τ sig (Elt F) := after r9 (Y9 X)
def Y11 : Valuation τ sig (Elt F) := after r10 (Y10 X)
def Y12 : Valuation τ sig (Elt F) := after r11 (Y11 X)
def Z0 : Valuation τ sig (Elt F) := after r12a (Y12 X)
def Z1 : Valuation τ sig (Elt F) := after r12a' (Z0 X)
def Z2 : Valuation τ sig (Elt F) := after r12b (Z1 X)
def Z3 : Valuation τ sig (Elt F) := after r12c (Z2 X)
def Z4 : Valuation τ sig (Elt F) := after r12d (Z3 X)
def Y13 : Valuation τ sig (Elt F) := after r12e (Z4 X)
def Y14 : Valuation τ sig (Elt F) := after r13 (Y13 X)
def Y15 : Valuation τ sig (Elt F) := after r14 (Y14 X)

theorem Y0_apply (b : DevRef τ sig) : Y0 X b = X b := rfl

theorem Y1_main_v0 : Y1 X (Proc.devRef .tc main_v0) = (Cert.Net.dot1 (X (Proc.devRef .tc main_arg0)) (X (Proc.devRef .tc main_arg2))) := by
  refine (chunk0_main_v0 (Y0 X)).trans ?_
  rw [Y0_apply, Y0_apply]
theorem Y1_main_arg1 : Y1 X (Proc.devRef .tc main_arg1) = (X (Proc.devRef .tc main_arg1)) := (keep0_main_arg1 (Y0 X)).trans (Y0_apply X _)
theorem Y1_main_arg3 : Y1 X (Proc.devRef .tc main_arg3) = (X (Proc.devRef .tc main_arg3)) := (keep0_main_arg3 (Y0 X)).trans (Y0_apply X _)
theorem Y1_main_arg4 : Y1 X (Proc.devRef .tc main_arg4) = (X (Proc.devRef .tc main_arg4)) := (keep0_main_arg4 (Y0 X)).trans (Y0_apply X _)
theorem Y1_main_arg5 : Y1 X (Proc.devRef .tc main_arg5) = (X (Proc.devRef .tc main_arg5)) := (keep0_main_arg5 (Y0 X)).trans (Y0_apply X _)

theorem Y2_main_v0 : Y2 X (Proc.devRef .tc main_v0) = (Cert.Net.dot1 (X (Proc.devRef .tc main_arg0)) (X (Proc.devRef .tc main_arg2))) := (keep1_main_v0 (Y1 X)).trans (Y1_main_v0 X)
theorem Y2_main_v4 : Y2 X (Proc.devRef .tc main_v4) = (Cert.Net.srcOf (X (Proc.devRef .tc main_arg1))) := by
  refine (chunk1_main_v4 (Y1 X)).trans ?_
  rw [Y1_main_arg1]
theorem Y2_main_v7 : Y2 X (Proc.devRef .tc main_v7) = (Cert.Net.dstOf (X (Proc.devRef .tc main_arg1))) := by
  refine (chunk1_main_v7 (Y1 X)).trans ?_
  rw [Y1_main_arg1]
theorem Y2_main_arg1 : Y2 X (Proc.devRef .tc main_arg1) = (X (Proc.devRef .tc main_arg1)) := (keep1_main_arg1 (Y1 X)).trans (Y1_main_arg1 X)
theorem Y2_main_arg3 : Y2 X (Proc.devRef .tc main_arg3) = (X (Proc.devRef .tc main_arg3)) := (keep1_main_arg3 (Y1 X)).trans (Y1_main_arg3 X)
theorem Y2_main_arg4 : Y2 X (Proc.devRef .tc main_arg4) = (X (Proc.devRef .tc main_arg4)) := (keep1_main_arg4 (Y1 X)).trans (Y1_main_arg4 X)
theorem Y2_main_arg5 : Y2 X (Proc.devRef .tc main_arg5) = (X (Proc.devRef .tc main_arg5)) := (keep1_main_arg5 (Y1 X)).trans (Y1_main_arg5 X)

theorem Y3_main_v0 : Y3 X (Proc.devRef .tc main_v0) = (Cert.Net.dot1 (X (Proc.devRef .tc main_arg0)) (X (Proc.devRef .tc main_arg2))) := (keep2_main_v0 (Y2 X)).trans (Y2_main_v0 X)
theorem Y3_main_v4 : Y3 X (Proc.devRef .tc main_v4) = (Cert.Net.srcOf (X (Proc.devRef .tc main_arg1))) := (keep2_main_v4 (Y2 X)).trans (Y2_main_v4 X)
theorem Y3_main_v7 : Y3 X (Proc.devRef .tc main_v7) = (Cert.Net.dstOf (X (Proc.devRef .tc main_arg1))) := (keep2_main_v7 (Y2 X)).trans (Y2_main_v7 X)
theorem Y3_main_v15 : Y3 X (Proc.devRef .tc main_v15) = (Cert.Net.dinvOf (Cert.Net.degOf (F := F) (Cert.Net.dstOf (X (Proc.devRef .tc main_arg1))))) := by
  refine (chunk2_main_v15 (Y2 X)).trans ?_
  rw [Y2_main_v7]
theorem Y3_main_arg1 : Y3 X (Proc.devRef .tc main_arg1) = (X (Proc.devRef .tc main_arg1)) := (keep2_main_arg1 (Y2 X)).trans (Y2_main_arg1 X)
theorem Y3_main_arg3 : Y3 X (Proc.devRef .tc main_arg3) = (X (Proc.devRef .tc main_arg3)) := (keep2_main_arg3 (Y2 X)).trans (Y2_main_arg3 X)
theorem Y3_main_arg4 : Y3 X (Proc.devRef .tc main_arg4) = (X (Proc.devRef .tc main_arg4)) := (keep2_main_arg4 (Y2 X)).trans (Y2_main_arg4 X)
theorem Y3_main_arg5 : Y3 X (Proc.devRef .tc main_arg5) = (X (Proc.devRef .tc main_arg5)) := (keep2_main_arg5 (Y2 X)).trans (Y2_main_arg5 X)

theorem Y4_main_v0 : Y4 X (Proc.devRef .tc main_v0) = (Cert.Net.dot1 (X (Proc.devRef .tc main_arg0)) (X (Proc.devRef .tc main_arg2))) := (keep3_main_v0 (Y3 X)).trans (Y3_main_v0 X)
theorem Y4_main_v4 : Y4 X (Proc.devRef .tc main_v4) = (Cert.Net.srcOf (X (Proc.devRef .tc main_arg1))) := (keep3_main_v4 (Y3 X)).trans (Y3_main_v4 X)
theorem Y4_main_v7 : Y4 X (Proc.devRef .tc main_v7) = (Cert.Net.dstOf (X (Proc.devRef .tc main_arg1))) := (keep3_main_v7 (Y3 X)).trans (Y3_main_v7 X)
theorem Y4_main_v30 : Y4 X (Proc.devRef .tc main_v30) = (Cert.Net.normOf (F := F) (X (Proc.devRef .tc main_arg1))) := by
  refine (chunk3_main_v30 (Y3 X)).trans ?_
  rw [Y3_main_v4, Y3_main_v7, Y3_main_v15]
  rfl
theorem Y4_main_arg1 : Y4 X (Proc.devRef .tc main_arg1) = (X (Proc.devRef .tc main_arg1)) := (keep3_main_arg1 (Y3 X)).trans (Y3_main_arg1 X)
theorem Y4_main_arg3 : Y4 X (Proc.devRef .tc main_arg3) = (X (Proc.devRef .tc main_arg3)) := (keep3_main_arg3 (Y3 X)).trans (Y3_main_arg3 X)
theorem Y4_main_arg4 : Y4 X (Proc.devRef .tc main_arg4) = (X (Proc.devRef .tc main_arg4)) := (keep3_main_arg4 (Y3 X)).trans (Y3_main_arg4 X)
theorem Y4_main_arg5 : Y4 X (Proc.devRef .tc main_arg5) = (X (Proc.devRef .tc main_arg5)) := (keep3_main_arg5 (Y3 X)).trans (Y3_main_arg5 X)

theorem Y5_main_v43 : Y5 X (Proc.devRef .tc main_v43) = (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) := by
  refine (chunk4_main_v43 (Y4 X)).trans ?_
  rw [Y4_main_v4, Y4_main_v7, Y4_main_v30, Y4_main_v0]
theorem Y5_main_arg1 : Y5 X (Proc.devRef .tc main_arg1) = (X (Proc.devRef .tc main_arg1)) := (keep4_main_arg1 (Y4 X)).trans (Y4_main_arg1 X)
theorem Y5_main_arg3 : Y5 X (Proc.devRef .tc main_arg3) = (X (Proc.devRef .tc main_arg3)) := (keep4_main_arg3 (Y4 X)).trans (Y4_main_arg3 X)
theorem Y5_main_arg4 : Y5 X (Proc.devRef .tc main_arg4) = (X (Proc.devRef .tc main_arg4)) := (keep4_main_arg4 (Y4 X)).trans (Y4_main_arg4 X)
theorem Y5_main_arg5 : Y5 X (Proc.devRef .tc main_arg5) = (X (Proc.devRef .tc main_arg5)) := (keep4_main_arg5 (Y4 X)).trans (Y4_main_arg5 X)

theorem Y6_main_v47 : Y6 X (Proc.devRef .tc main_v47) = (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) := by
  refine (chunk5_main_v47 (Y5 X)).trans ?_
  rw [Y5_main_v43, Y5_main_arg3]
theorem Y6_main_arg1 : Y6 X (Proc.devRef .tc main_arg1) = (X (Proc.devRef .tc main_arg1)) := (keep5_main_arg1 (Y5 X)).trans (Y5_main_arg1 X)
theorem Y6_main_arg4 : Y6 X (Proc.devRef .tc main_arg4) = (X (Proc.devRef .tc main_arg4)) := (keep5_main_arg4 (Y5 X)).trans (Y5_main_arg4 X)
theorem Y6_main_arg5 : Y6 X (Proc.devRef .tc main_arg5) = (X (Proc.devRef .tc main_arg5)) := (keep5_main_arg5 (Y5 X)).trans (Y5_main_arg5 X)

theorem Y7_main_v48 : Y7 X (Proc.devRef .tc main_v48) = (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4))) := by
  refine (chunk6_main_v48 (Y6 X)).trans ?_
  rw [Y6_main_v47, Y6_main_arg4]
theorem Y7_main_arg1 : Y7 X (Proc.devRef .tc main_arg1) = (X (Proc.devRef .tc main_arg1)) := (keep6_main_arg1 (Y6 X)).trans (Y6_main_arg1 X)
theorem Y7_main_arg5 : Y7 X (Proc.devRef .tc main_arg5) = (X (Proc.devRef .tc main_arg5)) := (keep6_main_arg5 (Y6 X)).trans (Y6_main_arg5 X)

theorem Y8_main_v48 : Y8 X (Proc.devRef .tc main_v48) = (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4))) := (keep7_main_v48 (Y7 X)).trans (Y7_main_v48 X)
theorem Y8_main_v52 : Y8 X (Proc.devRef .tc main_v52) = (Cert.Net.srcOf (X (Proc.devRef .tc main_arg1))) := by
  refine (chunk7_main_v52 (Y7 X)).trans ?_
  rw [Y7_main_arg1]
theorem Y8_main_v55 : Y8 X (Proc.devRef .tc main_v55) = (Cert.Net.dstOf (X (Proc.devRef .tc main_arg1))) := by
  refine (chunk7_main_v55 (Y7 X)).trans ?_
  rw [Y7_main_arg1]
theorem Y8_main_arg5 : Y8 X (Proc.devRef .tc main_arg5) = (X (Proc.devRef .tc main_arg5)) := (keep7_main_arg5 (Y7 X)).trans (Y7_main_arg5 X)

theorem Y9_main_v48 : Y9 X (Proc.devRef .tc main_v48) = (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4))) := (keep8_main_v48 (Y8 X)).trans (Y8_main_v48 X)
theorem Y9_main_v52 : Y9 X (Proc.devRef .tc main_v52) = (Cert.Net.srcOf (X (Proc.devRef .tc main_arg1))) := (keep8_main_v52 (Y8 X)).trans (Y8_main_v52 X)
theorem Y9_main_v55 : Y9 X (Proc.devRef .tc main_v55) = (Cert.Net.dstOf (X (Proc.devRef .tc main_arg1))) := (keep8_main_v55 (Y8 X)).trans (Y8_main_v55 X)
theorem Y9_main_v63 : Y9 X (Proc.devRef .tc main_v63) = (Cert.Net.dinvOf (Cert.Net.degOf (F := F) (Cert.Net.dstOf (X (Proc.devRef .tc main_arg1))))) := by
  refine (chunk8_main_v63 (Y8 X)).trans ?_
  rw [Y8_main_v55]
theorem Y9_main_arg5 : Y9 X (Proc.devRef .tc main_arg5) = (X (Proc.devRef .tc main_arg5)) := (keep8_main_arg5 (Y8 X)).trans (Y8_main_arg5 X)

theorem Y10_main_v48 : Y10 X (Proc.devRef .tc main_v48) = (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4))) := (keep9_main_v48 (Y9 X)).trans (Y9_main_v48 X)
theorem Y10_main_v52 : Y10 X (Proc.devRef .tc main_v52) = (Cert.Net.srcOf (X (Proc.devRef .tc main_arg1))) := (keep9_main_v52 (Y9 X)).trans (Y9_main_v52 X)
theorem Y10_main_v55 : Y10 X (Proc.devRef .tc main_v55) = (Cert.Net.dstOf (X (Proc.devRef .tc main_arg1))) := (keep9_main_v55 (Y9 X)).trans (Y9_main_v55 X)
theorem Y10_main_v78 : Y10 X (Proc.devRef .tc main_v78) = (Cert.Net.normOf (F := F) (X (Proc.devRef .tc main_arg1))) := by
  refine (chunk9_main_v78 (Y9 X)).trans ?_
  rw [Y9_main_v52, Y9_main_v55, Y9_main_v63]
  rfl
theorem Y10_main_arg5 : Y10 X (Proc.devRef .tc main_arg5) = (X (Proc.devRef .tc main_arg5)) := (keep9_main_arg5 (Y9 X)).trans (Y9_main_arg5 X)

theorem Y11_main_v91 : Y11 X (Proc.devRef .tc main_v91) = (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) := by
  refine (chunk10_main_v91 (Y10 X)).trans ?_
  rw [Y10_main_v52, Y10_main_v55, Y10_main_v78, Y10_main_v48]
theorem Y11_main_arg5 : Y11 X (Proc.devRef .tc main_arg5) = (X (Proc.devRef .tc main_arg5)) := (keep10_main_arg5 (Y10 X)).trans (Y10_main_arg5 X)

theorem Y12_main_v94 : Y12 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := by
  refine (chunk11_main_v94 (Y11 X)).trans ?_
  rw [Y11_main_v91, Y11_main_arg5]

theorem Z0_main_v94 : Z0 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12a_main_v94 (Y12 X)).trans (Y12_main_v94 X)
theorem Z0_main_call3_cst : Z0 X (Proc.devRef .tc main_call3_cst) = constant (F := F) S_ .f32 0xFF800000#32 := chunk12a_main_call3_cst (Y12 X)
theorem Z1_main_v94 : Z1 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12a'_main_v94 (Z0 X)).trans (Z0_main_v94 X)
theorem Z1_main_call3_v0 : Z1 X (Proc.devRef .tc main_call3_v0) = rowMaxOf (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := by
  refine (chunk12a'_main_call3_v0 (Z0 X)).trans ?_
  rw [Z0_main_v94, Z0_main_call3_cst]
  rfl

theorem Z2_main_v94 : Z2 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12b_main_v94 (Z1 X)).trans (Z1_main_v94 X)
theorem Z2_main_call3_v0 : Z2 X (Proc.devRef .tc main_call3_v0) = rowMaxOf (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12b_main_call3_v0 (Z1 X)).trans (Z1_main_call3_v0 X)
theorem Z2_main_call3_v1 : Z2 X (Proc.devRef .tc main_call3_v1) = negInfRow (F := F) := chunk12b_main_call3_v1 (Z1 X)

theorem Z3_main_v94 : Z3 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12c_main_v94 (Z2 X)).trans (Z2_main_v94 X)
theorem Z3_main_call3_v2 : Z3 X (Proc.devRef .tc main_call3_v2) = (maximumf (F := F) (negInfRow (F := F)) (rowMaxOf (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))))) := by
  refine (chunk12c_main_call3_v2 (Z2 X)).trans ?_
  rw [Z2_main_call3_v1, Z2_main_call3_v0]

theorem Z4_main_v94 : Z4 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12d_main_v94 (Z3 X)).trans (Z3_main_v94 X)
theorem Z4_main_call3_v3 : Z4 X (Proc.devRef .tc main_call3_v3) = broadcastInDim S100000x1 ![0] bcast_S100000_S100000x1_0 (maximumf (F := F) (negInfRow (F := F)) (rowMaxOf (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))))) := by
  refine (chunk12d_main_call3_v3 (Z3 X)).trans ?_
  rw [Z3_main_call3_v2]

theorem Y13_main_v94 : Y13 X (Proc.devRef .tc main_v94) = (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := (keep12e_main_v94 (Z4 X)).trans (Z4_main_v94 X)

theorem Y13_main_call3_v4 : Y13 X (Proc.devRef .tc main_call3_v4) = maxRows (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) := by
  refine (chunk12e_main_call3_v4 (Z4 X)).trans ?_
  rw [Z4_main_call3_v3]
  rfl

theorem Y14_main_call3_v5 : Y14 X (Proc.devRef .tc main_call3_v5) = subf (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5))) (maxRows (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5)))) := by
  refine (chunk13_main_call3_v5 (Y13 X)).trans ?_
  rw [Y13_main_v94, Y13_main_call3_v4]

theorem Y15_main_v95 : Y15 X (Proc.devRef .tc main_v95) = (Cert.Net.logSoftmax (F := F) (Cert.Net.biasAdd (F := F) (Cert.Net.aggr40 (F := F) (Cert.Net.srcOf (X (Proc.devRef .tc main_arg1))) (Cert.Net.dstOf (X (Proc.devRef .tc main_arg1))) (Cert.Net.normOf (F := F) (X (Proc.devRef .tc main_arg1))) (Cert.Net.dot2 (F := F) (Cert.Net.biasRelu (F := F) (Cert.Net.aggr16 (F := F) (Cert.Net.srcOf (X (Proc.devRef .tc main_arg1))) (Cert.Net.dstOf (X (Proc.devRef .tc main_arg1))) (Cert.Net.normOf (F := F) (X (Proc.devRef .tc main_arg1))) (Cert.Net.dot1 (X (Proc.devRef .tc main_arg0)) (X (Proc.devRef .tc main_arg2)))) (X (Proc.devRef .tc main_arg3))) (X (Proc.devRef .tc main_arg4)))) (X (Proc.devRef .tc main_arg5)))) := by
  refine (chunk14_main_v95 (Y14 X)).trans ?_
  rw [Y14_main_call3_v5]
  exact (logSoftmax_split _).symm

/-- The reference's operations, run from `X`, leave the contents `Y15 X`. -/
theorem after_ops : after (ValueP.ops : List (HloOp τ sig (Elt F))) X = Y15 X := by
  rw [ops_eq]
  simp only [after_append]
  rfl

/-- The result buffer after the reference's operations: the network of the six argument buffers. -/
theorem result_eq : after (ValueP.ops : List (HloOp τ sig (Elt F))) X (Proc.devRef .tc main_v95)
    = Cert.Net.out (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [after_ops, Y15_main_v95]
  rfl

set_option maxRecDepth 8192 in
set_option maxHeartbeats 4000000 in
theorem arg0_eq : after (ValueP.ops : List (HloOp τ sig (Elt F))) X (Proc.devRef .tc main_arg0) = X (Proc.devRef .tc main_arg0) := by
  after_results_simp <;> rfl

set_option maxRecDepth 8192 in
set_option maxHeartbeats 4000000 in
theorem arg1_eq : after (ValueP.ops : List (HloOp τ sig (Elt F))) X (Proc.devRef .tc main_arg1) = X (Proc.devRef .tc main_arg1) := by
  after_results_simp <;> rfl

set_option maxRecDepth 8192 in
set_option maxHeartbeats 4000000 in
theorem arg2_eq : after (ValueP.ops : List (HloOp τ sig (Elt F))) X (Proc.devRef .tc main_arg2) = X (Proc.devRef .tc main_arg2) := by
  after_results_simp <;> rfl

set_option maxRecDepth 8192 in
set_option maxHeartbeats 4000000 in
theorem arg3_eq : after (ValueP.ops : List (HloOp τ sig (Elt F))) X (Proc.devRef .tc main_arg3) = X (Proc.devRef .tc main_arg3) := by
  after_results_simp <;> rfl

set_option maxRecDepth 8192 in
set_option maxHeartbeats 4000000 in
theorem arg4_eq : after (ValueP.ops : List (HloOp τ sig (Elt F))) X (Proc.devRef .tc main_arg4) = X (Proc.devRef .tc main_arg4) := by
  after_results_simp <;> rfl

set_option maxRecDepth 8192 in
set_option maxHeartbeats 4000000 in
theorem arg5_eq : after (ValueP.ops : List (HloOp τ sig (Elt F))) X (Proc.devRef .tc main_arg5) = X (Proc.devRef .tc main_arg5) := by
  after_results_simp <;> rfl

end Stages

/-! ## The run -/

/-- From any memory with zero counters every weakly fair execution of the reference terminates, nothing faulting,
    with the result at the network of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.Net.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq ValueP.scopedRefs_eq ValueP.scopedSems_eq defs main (fun _ => ValueP.ops) ValueP.main_eq (fun _ => ValueP.ops_sub) m ρ)

end Cert.ReferenceIdeal.RefValue

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«176543_j81312320848104_1_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.RefAffine.lean ====
/-
  The reference's two matrix products and its bias-and-clamp step, read entry by entry over the extended reals.

  The product of a [100000, 512] matrix by a [512, 16] one, and of a [100000, 16] matrix by a [16, 40] one, have at
  the entry (p, q) the sum over k of x (p, k) · w (k, q).  The bias step makes the vector b a row, repeats it down
  the rows, adds it to a, and takes the maximum with the zero matrix: entry (p, q) is max (a (p, q) + b q, 0).
  A flat array reshaped to one row is that array read as a one-row matrix.
-/
import proofs.«176543_j81312320848104_1_alg».proof.Proof.Spec
import proofs.«176543_j81312320848104_1_alg».proof.Proof.Rows
import proofs.«176543_j81312320848104_1_alg».proof.Proof.LibDot
import proofs.«176543_j81312320848104_1_alg».proof.Proof.LibRowBroadcast
import proofs.«176543_j81312320848104_1_alg».proof.Proof.LibLayout
import Idealize.ShloMosaic.Lib.Pipeline.Value
import Idealize.ShloMosaic.Lib.ValueIdx
import Idealize.ShloMosaic.PureOps.Ideal.Laws

noncomputable section

namespace Cert.Net.Read

open scoped BigOperators
open Idealize.ShloMosaic Idealize.ShloMosaic.ValueIdx
open Cert.ReferenceIdeal Cert.ReferenceIdeal.Facts₀

variable [Cert.ReferenceIdeal.Facts]

/-- The first product, entry by entry: the sum over the 512 positions of the contracted axis. -/
theorem dot1_eq (x : FVec Ideal S100000x512 .f32) (w : FVec Ideal S512x16 .f32) :
    Cert.Net.dot1 (F := Ideal) x w = Net.mm (M := 100000) (K := 512) (N := 16) x w := by
  funext i
  obtain ⟨p, q, rfl⟩ : ∃ (p : Fin 100000) (q : Fin 16), i = ix2 p q := ⟨i 0, i 1, eq_ix2 i⟩
  unfold Cert.Net.dot1
  exact PlainMatmul.host_apply (d := dot_S100000x512_S512x16_S100000x16_1_0_0_1_n_n) ⟨rfl, rfl, rfl, rfl, rfl, rfl⟩ none x w p q

/-- The second product, entry by entry: the sum over the 16 positions of the contracted axis. -/
theorem dot2_eq (h : FVec Ideal S100000x16 .f32) (w : FVec Ideal S16x40 .f32) :
    Cert.Net.dot2 (F := Ideal) h w = Net.mm (M := 100000) (K := 16) (N := 40) h w := by
  funext i
  obtain ⟨p, q, rfl⟩ : ∃ (p : Fin 100000) (q : Fin 40), i = ix2 p q := ⟨i 0, i 1, eq_ix2 i⟩
  unfold Cert.Net.dot2
  exact PlainMatmul.host_apply (d := dot_S100000x16_S16x40_S100000x40_1_0_0_1_n_n) ⟨rfl, rfl, rfl, rfl, rfl, rfl⟩ none h w p q

/-- The zero scalar repeated over the whole matrix reads 0 at every entry. -/
theorem zeros_apply (p : Fin 100000) (q : Fin 16) :
    broadcastInDim S100000x16 ![] bcast_S_S100000x16 (constant (F := Ideal) S_ .f32 0x00000000#32) (ix2 p q) = (0 : EReal) := by
  refine (broadcastInDim_apply ![] bcast_S_S100000x16 (constant (F := Ideal) S_ .f32 0x00000000#32) (ix2 p q)
    (fun a => a.elim0) fun a => a.elim0).trans ?_
  rw [constant_apply, Ideal.ofBits_zero_f32]

/-- The bias step, entry by entry: max (a (p, q) + b q, 0), the vector b read as a one-row matrix. -/
theorem biasRelu_eq (a : FVec Ideal S100000x16 .f32) (b : FVec Ideal S16 .f32) :
    Cert.Net.biasRelu (F := Ideal) a b = Gcn.biasRelu (M := 100000) (N := 16) a (Net.rowOf b) := by
  funext i
  obtain ⟨p, q, rfl⟩ : ∃ (p : Fin 100000) (q : Fin 16), i = ix2 p q := ⟨i 0, i 1, eq_ix2 i⟩
  unfold Cert.Net.biasRelu
  rw [maximumf_apply, addf_apply, zeros_apply p q,
    RowBroadcast.cols_apply bcast_S16_S1x16_1 bcast_S1x16_S100000x16_0_1 b p q]
  rfl

/-- A flat array reshaped to one row is the array read as a one-row matrix. -/
theorem rowOf_eq {N : ℕ} (b : (⟨1, ![N]⟩ : Shape).Idx → EReal) (h : (⟨1, ![N]⟩ : Shape).ShapeCasts (⟨2, ![1, N]⟩ : Shape)) :
    shapeCast (⟨2, ![1, N]⟩ : Shape) b h = Net.rowOf b := by
  funext i
  obtain ⟨p, q, rfl⟩ : ∃ (p : Fin 1) (q : Fin N), i = ix2 p q := ⟨i 0, i 1, eq_ix2 i⟩
  have hp : p = 0 := Subsingleton.elim _ _
  subst hp
  exact RowOfFlat.apply b h q

end Cert.Net.Read

end
-- ==== Proof.RefSoftmax.lean ====
/-
  The reference's last two operations, read at an entry: adding the bias vector b to every row of a and taking the
  log-softmax along each row is the row-wise log-softmax of a + b with b read as a matrix of one row.

  The reference takes the row maximum by a fold of max from −∞ over the row and then the maximum of that with −∞ once
  more; a fold of max from −∞ is at least −∞, so the second maximum changes nothing. Its row sum starts from the
  zero word, which is the extended real 0. No finiteness is assumed.
-/
import proofs.«176543_j81312320848104_1_alg».proof.Proof.Spec
import proofs.«176543_j81312320848104_1_alg».proof.Proof.Rows
import proofs.«176543_j81312320848104_1_alg».proof.Proof.LibRowBroadcast
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

set_option maxRecDepth 16384

noncomputable section

namespace Cert.Net.Read

open scoped BigOperators
open Idealize.ShloMosaic Idealize.ShloMosaic.ValueIdx
open Cert.ReferenceIdeal Cert.ReferenceIdeal.Facts₀

variable [Cert.ReferenceIdeal.Facts]

/-- A column [N, 1] repeated along H columns reads, at (r, j), the column at (r, 0). -/
theorem colRepeat_apply {α : Type} {N H : ℕ} (h : (⟨2, ![N, 1]⟩ : Shape).BroadcastsInDim ⟨2, ![N, H]⟩ ![0, 1])
    (v : (⟨2, ![N, 1]⟩ : Shape).Idx → α) (r : Fin N) (j : Fin H) :
    broadcastInDim ⟨2, ![N, H]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- The host's maximum of a matrix [a, b] along its second axis, read at row p over the extended reals: the fold of
    max from the initial value over the entries (p, c). -/
theorem hostLaneMax_apply {a b : ℕ} {u : Shape} (l : FVec Ideal ⟨2, ![a, b]⟩ .f32) (init : u.Idx → Ideal .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) l init h' hu (ix1 p)
      = (Finset.univ : Finset (Fin b)).fold max (init (Shape.Idx.first hu)) (fun c => l (ix2 p c)) := by
  refine (Host.reduce_eq_fold_single (FloatOps.maximumf (F := Ideal) (φ := .f32)) l init h' h hu (ix1 p)).trans ?_
  show (Finset.univ : Finset (Fin b)).fold max (init (Shape.Idx.first hu)) (l ∘ h.lift (ix1 p)) = _
  refine congrArg ((Finset.univ : Finset (Fin b)).fold max (init (Shape.Idx.first hu))) (funext fun c => ?_)
  show l (h.lift (ix1 p) c) = l (ix2 p c)
  refine congrArg l (funext fun d => Fin.ext ?_)
  match d with
  | ⟨0, _⟩ => rfl
  | ⟨1, _⟩ => rfl

/-- The host's sum of a matrix [a, b] along its second axis, read at row p over the extended reals: the initial value
    plus the sum of the entries (p, c). -/
theorem hostLaneSum_apply {a b : ℕ} {u : Shape} (x : FVec Ideal ⟨2, ![a, b]⟩ .f32) (init : u.Idx → Ideal .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduceAdd (F := Ideal) x init h' hu (ix1 p) = init (Shape.Idx.first hu) + ∑ c : Fin b, x (ix2 p c) := by
  refine (Ideal.hostReduceAdd_single h' h x (init (Shape.Idx.first hu)) (ix1 p)).trans ?_
  show init (Shape.Idx.first hu) + ∑ c : Fin b, x (h.lift (ix1 p) c) = _
  refine congrArg (init (Shape.Idx.first hu) + ·) (Finset.sum_congr rfl fun c _ => congrArg x (funext fun d => Fin.ext ?_))
  match d with
  | ⟨0, _⟩ => rfl
  | ⟨1, _⟩ => rfl

/-- The host's exponential and logarithm act entry by entry. -/
theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

/-- A fold of max from b over any family is b again under one more maximum with b. -/
theorem max_fold_max {ι : Type} (s : Finset ι) (b : EReal) (f : ι → EReal) :
    max b (s.fold max b f) = s.fold max b f :=
  max_eq_right ((Finset.le_fold_max b).2 (Or.inl le_rfl))

/-- The log-softmax of one row R: each entry less the row's maximum, less the logarithm of the sum of the exponentials of
    the entries so shifted. -/
def rowLogSoftmax {N : ℕ} (R : Fin N → EReal) (q : Fin N) : EReal :=
  (R q - _root_.Net.rowMax R) - Ideal.log (∑ j : Fin N, Ideal.exp (R j - _root_.Net.rowMax R))

/-- The row-wise log-softmax of a + b at (p, q) is the log-softmax of row p of a + b, at q. -/
theorem logSoftmaxRows_apply {M N : ℕ} (a : Gcn.Mat M N) (b : Gcn.Mat 1 N) (p : Fin M) (q : Fin N) :
    _root_.Net.logSoftmaxRows a b (ix2 p q) = rowLogSoftmax (fun j => a (ix2 p j) + b (ix2 0 j)) q := rfl

/-- The bias vector added to every row, at an entry. -/
theorem biasAdd_apply (a : FVec Ideal S100000x40 .f32) (b : FVec Ideal S40 .f32) (p : Fin 100000) (j : Fin 40) :
    Cert.Net.biasAdd (F := Ideal) a b (ix2 p j) = a (ix2 p j) + _root_.Net.rowOf b (ix2 0 j) := by
  unfold Cert.Net.biasAdd
  rw [addf_apply]
  exact congrArg (a (ix2 p j) + ·)
    (RowBroadcast.cols_apply (N := 100000) (H := 40) bcast_S40_S1x40_1 bcast_S1x40_S100000x40_0_1 b p j)

/-- The reference's row maxima of a matrix l: the maximum of −∞ and the fold of max from −∞ over each row. -/
def rowMaxima (l : FVec Ideal S100000x40 .f32) : FVec Ideal S100000 .f32 :=
  maximumf (broadcastInDim S100000 ![] bcast_S_S100000 (constant (F := Ideal) S_ .f32 0xFF800000#32))
    (Host.reduce (FloatOps.maximumf (F := Ideal)) l (constant (F := Ideal) S_ .f32 0xFF800000#32)
      reducesTo_S100000x40_S100000_d1 h_S_)

/-- At row p it is the maximum of −∞ and the row's entries. -/
theorem rowMaxima_apply (l : FVec Ideal S100000x40 .f32) (p : Fin 100000) :
    rowMaxima l (ix1 p) = _root_.Net.rowMax fun j => l (ix2 p j) := by
  unfold rowMaxima
  rw [maximumf_apply, broadcastInDim_scalar_apply,
    hostLaneMax_apply (a := 100000) (b := 40) l _ reducesTo_S100000x40_S100000_d1 (by decide) h_S_ p]
  simp only [constant_apply]
  exact max_fold_max _ _ _

/-- The row maxima kept as a column and repeated along the 40 columns. -/
def maxCols (l : FVec Ideal S100000x40 .f32) : FVec Ideal S100000x40 .f32 :=
  broadcastInDim S100000x40 ![0, 1] bcast_S100000x1_S100000x40_0_1
    (broadcastInDim S100000x1 ![0] bcast_S100000_S100000x1_0 (rowMaxima l))

/-- At (p, j) it is the maximum of −∞ and row p's entries. -/
theorem maxCols_apply (l : FVec Ideal S100000x40 .f32) (p : Fin 100000) (j : Fin 40) :
    maxCols l (ix2 p j) = _root_.Net.rowMax fun j' => l (ix2 p j') := by
  unfold maxCols
  exact (RowBroadcast.rows_apply (N := 100000) (H := 40) bcast_S100000_S100000x1_0 bcast_S100000x1_S100000x40_0_1
    (rowMaxima l) p j).trans (rowMaxima_apply l p)

/-- The reference's log-softmax is its operand less its row maxima, less the logarithm of the row sums of the
    exponentials of that difference. -/
theorem logSoftmax_eq (l : FVec Ideal S100000x40 .f32) :
    Cert.Net.logSoftmax (F := Ideal) l = subf (subf l (maxCols l))
      (broadcastInDim S100000x40 ![0, 1] bcast_S100000x1_S100000x40_0_1
        (Host.log (broadcastInDim S100000x1 ![0] bcast_S100000_S100000x1_0
          (Host.reduceAdd (F := Ideal) (Host.exp (subf l (maxCols l))) (constant (F := Ideal) S_ .f32 0x00000000#32)
            reducesTo_S100000x40_S100000_d1 h_S_)))) := by
  unfold Cert.Net.logSoftmax maxCols rowMaxima
  rfl

/-- The reference's log-softmax at (p, q) is the log-softmax of row p of its operand, at q. -/
theorem logSoftmax_apply (l : FVec Ideal S100000x40 .f32) (p : Fin 100000) (q : Fin 40) :
    Cert.Net.logSoftmax (F := Ideal) l (ix2 p q) = rowLogSoftmax (fun j => l (ix2 p j)) q := by
  rw [logSoftmax_eq]
  unfold rowLogSoftmax
  rw [subf_apply, subf_apply, maxCols_apply]
  refine congrArg (l (ix2 p q) - (_root_.Net.rowMax fun j' => l (ix2 p j')) - ·) ?_
  refine (colRepeat_apply (N := 100000) (H := 40) bcast_S100000x1_S100000x40_0_1 _ p q).trans ?_
  refine (hostLog_apply _ _).trans ?_
  refine congrArg Ideal.log ?_
  refine (RowBroadcast.col_apply (N := 100000) bcast_S100000_S100000x1_0 _ p 0).trans ?_
  refine (hostLaneSum_apply (a := 100000) (b := 40) _ _ reducesTo_S100000x40_S100000_d1 (by decide) h_S_ p).trans ?_
  rw [constant_apply, Ideal.ofBits_zero_f32, zero_add]
  refine Finset.sum_congr rfl fun j _ => ?_
  refine (hostExp_apply _ _).trans ?_
  rw [subf_apply, maxCols_apply]

/-- The reference's bias add followed by its log-softmax is the row-wise log-softmax of a + b, the vector b read as a
    matrix of one row. -/
theorem logSoftmax_biasAdd (a : FVec Ideal Cert.ReferenceIdeal.S100000x40 .f32)
    (b : FVec Ideal Cert.ReferenceIdeal.S40 .f32) :
    Cert.Net.logSoftmax (F := Ideal) (Cert.Net.biasAdd (F := Ideal) a b)
      = _root_.Net.logSoftmaxRows (M := 100000) (N := 40) a (_root_.Net.rowOf b) := by
  funext i
  obtain ⟨p, q, rfl⟩ : ∃ (p : Fin 100000) (q : Fin 40), i = ix2 p q := ⟨i 0, i 1, eq_ix2 i⟩
  rw [logSoftmax_apply, logSoftmaxRows_apply]
  exact congrArg (fun R => rowLogSoftmax R q) (funext fun j => biasAdd_apply a b p j)

end Cert.Net.Read

end
-- ==== Proof.Bridge.lean ====
/-
  The two programs compute one function.

  The kernel program ends at
      logSoftmaxRows (aggregate (mm (biasRelu (aggregate (mm x w1)) row(b1)) w2)) row(b2)
  — entrywise matrix products, the bias row added and clamped, the row-wise log-softmax, the two aggregation
  steps over the edges between them — and the reference at the same composition written with the host's general
  contraction, broadcasts and reductions.  The aggregation steps are the same operations on both sides and are not
  opened; what is compared is each dense piece, entry by entry: a contraction over one axis is the sum of products
  whichever operation computes it; a vector laid out as one row by a reshape or by a broadcast has the same
  entries; the row maximum taken against −∞ once or twice is the same maximum.  None of this uses finiteness.
-/
import proofs.«176543_j81312320848104_1_alg».proof.Proof.Spec
import proofs.«176543_j81312320848104_1_alg».proof.Proof.Rows
import proofs.«176543_j81312320848104_1_alg».proof.Proof.RefAffine
import proofs.«176543_j81312320848104_1_alg».proof.Proof.RefSoftmax

noncomputable section

namespace Cert.Net.Bridge

open Idealize.ShloMosaic Cert.ReferenceIdeal

variable [Cert.ReferenceIdeal.Facts]

/-- The kernel program's composition of entrywise pieces is the network. -/
theorem kernel_form (x : FVec Ideal S100000x512 .f32) (ei : IVec S2x3200000 32) (w1 : FVec Ideal S512x16 .f32)
    (b1 : FVec Ideal S16 .f32) (w2 : FVec Ideal S16x40 .f32) (b2 : FVec Ideal S40 .f32)
    (h16 : (⟨1, ![16]⟩ : Shape).ShapeCasts (⟨2, ![1, 16]⟩ : Shape)) (h40 : (⟨1, ![40]⟩ : Shape).ShapeCasts (⟨2, ![1, 40]⟩ : Shape)) :
    Net.logSoftmaxRows (M := 100000) (N := 40)
        (Cert.Net.aggr40 (F := Ideal) (Cert.Net.srcOf ei) (Cert.Net.dstOf ei) (Cert.Net.normOf (F := Ideal) ei)
          (Net.mm (M := 100000) (K := 16) (N := 40)
            (Gcn.biasRelu (M := 100000) (N := 16)
              (Cert.Net.aggr16 (F := Ideal) (Cert.Net.srcOf ei) (Cert.Net.dstOf ei) (Cert.Net.normOf (F := Ideal) ei)
                (Net.mm (M := 100000) (K := 512) (N := 16) x w1))
              (shapeCast (⟨2, ![1, 16]⟩ : Shape) b1 h16))
            w2))
        (shapeCast (⟨2, ![1, 40]⟩ : Shape) b2 h40)
      = Cert.Net.out (F := Ideal) x ei w1 b1 w2 b2 := by
  unfold Cert.Net.out Cert.Net.logits Cert.Net.hidden Cert.Net.agg40 Cert.Net.agg16
  rw [Cert.Net.Read.logSoftmax_biasAdd, Cert.Net.Read.dot2_eq, Cert.Net.Read.biasRelu_eq, Cert.Net.Read.dot1_eq,
    Cert.Net.Read.rowOf_eq b1 h16, Cert.Net.Read.rowOf_eq b2 h40]

end Cert.Net.Bridge

end
-- ==== Proof.lean ====
/-
  The certificate of a two-layer graph convolution: four tiled kernel regions (x · W1; bias and clamp; h · W2;
  bias and row-wise log-softmax) with the edge gather / scatter-add between them on the host, against the plain
  reference.

  The three frames: the two kernel programs' are the generated frame certificates; the reference has no kernel,
  and its frame is its run with the result dropped.  The ideal pass rewrote nothing, so `preserves` is trivial.
  For `algebraic`: the kernel program's run ends with the result array at the last boundary's contents, which the
  walk through the boundaries reads as a composition of entrywise pieces and the shared aggregation steps
  (KRun, KWalk, Region0–3); the reference's run ends at the specification's `out` of the arguments (RefValue);
  the two compositions are one function (Bridge).  The precondition is never used: every law joining the two
  sides holds on all extended reals.
-/
import proofs.«176543_j81312320848104_1_alg».proof.Defs
import proofs.«176543_j81312320848104_1_alg».proof.Proof.Gen.Kernel
import proofs.«176543_j81312320848104_1_alg».proof.Proof.Gen.Kernel.Frame
import proofs.«176543_j81312320848104_1_alg».proof.Proof.Gen.KernelIdeal
import proofs.«176543_j81312320848104_1_alg».proof.Proof.Gen.KernelIdeal.Frame
import proofs.«176543_j81312320848104_1_alg».proof.Proof.Gen.ReferenceIdeal
import proofs.«176543_j81312320848104_1_alg».proof.Proof.Gen.Pre_finite_inputs
import proofs.«176543_j81312320848104_1_alg».proof.Proof.KRun
import proofs.«176543_j81312320848104_1_alg».proof.Proof.KWalk
import proofs.«176543_j81312320848104_1_alg».proof.Proof.RefValue
import proofs.«176543_j81312320848104_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs, from memories agreeing on the arguments, end with the network of the arguments in their result. -/
theorem algebraic : Cert.algebraic_KernelIdeal_ReferenceIdeal := by
  intro m ρ m' ρ' _ hagree
  refine ⟨fun c => Cert.Net.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Result.run (F := Ideal) m ρ)
    exact (Cert.KernelIdeal.Walk.W9_main_v61 m ρ c).trans (Cert.Net.Bridge.kernel_form _ _ _ _ _ _ _ _)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
